-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S1x1x2048x2048 : Shape := ⟨4, ![1, 1, 2048, 2048]⟩
abbrev S1 : Shape := ⟨1, ![1]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S2x8x2048x64 .f32) (main_arg5 : FVec F S2x8x2048x64 .f32) (main_arg6 : FVec F S1x1x2048x2048 .f32) (main_arg7 : FVec F S1 .f32) (main_v13 : IVec S_ 1) (main_v16 : IVec S2x8x2048x64 1) : IVec S_ 1 :=
  let main_c_5 : IVec S_ 1 := constantI S_ 1 1#1
  let main_v17 : IVec S_ 1 := (fun x v => Host.reduce IntOp.andi x v reducesTo_S2x8x2048x64_S_d0_1_2_3 h_S_) main_v16 main_c_5
  let main_v18 : IVec S_ 1 := andi main_v13 main_v17
  let main_v19 : FVec F S2x8x2048x64 .f32 := Host.absf main_arg4
  let main_cst_6 : FVec F S_ .f32 := constant S_ .f32 0x7F800000#32
  let main_v20 : FVec F S2x8x2048x64 .f32 := broadcastInDim S2x8x2048x64 ![] bcast_S_S2x8x2048x64 main_cst_6
  let main_v21 : IVec S2x8x2048x64 1 := cmpf .olt main_v19 main_v20
  let main_c_7 : IVec S_ 1 := constantI S_ 1 1#1
  let main_v22 : IVec S_ 1 := (fun x v => Host.reduce IntOp.andi x v reducesTo_S2x8x2048x64_S_d0_1_2_3 h_S_) main_v21 main_c_7
  let main_v23 : IVec S_ 1 := andi main_v18 main_v22
  let main_v24 : FVec F S2x8x2048x64 .f32 := Host.absf main_arg5
  let main_cst_8 : FVec F S_ .f32 := constant S_ .f32 0x7F800000#32
  let main_v25 : FVec F S2x8x2048x64 .f32 := broadcastInDim S2x8x2048x64 ![] bcast_S_S2x8x2048x64 main_cst_8
  let main_v26 : IVec S2x8x2048x64 1 := cmpf .olt main_v24 main_v25
  let main_c_9 : IVec S_ 1 := constantI S_ 1 1#1
  let main_v27 : IVec S_ 1 := (fun x v => Host.reduce IntOp.andi x v reducesTo_S2x8x2048x64_S_d0_1_2_3 h_S_) main_v26 main_c_9
  let main_v28 : IVec S_ 1 := andi main_v23 main_v27
  let main_v29 : FVec F S1x1x2048x2048 .f32 := Host.absf main_arg6
  let main_cst_10 : FVec F S_ .f32 := constant S_ .f32 0x7F800000#32
  let main_v30 : FVec F S1x1x2048x2048 .f32 := broadcastInDim S1x1x2048x2048 ![] bcast_S_S1x1x2048x2048 main_cst_10
  let main_v31 : IVec S1x1x2048x2048 1 := cmpf .olt main_v29 main_v30
  let main_c_11 : IVec S_ 1 := constantI S_ 1 1#1
  let main_v32 : IVec S_ 1 := (fun x v => Host.reduce IntOp.andi x v reducesTo_S1x1x2048x2048_S_d0_1_2_3 h_S_) main_v31 main_c_11
  let main_v33 : IVec S_ 1 := andi main_v28 main_v32
  fn_part2 (F := F) main_arg7 main_v33

def fn {F : FTy → Type} [FloatOps F] (main_arg0 : FVec F S2x8x2048x64 .f32) (main_arg1 : FVec F S2x8x2048x64 .f32) (main_arg2 : FVec F S2x8x2048x64 .f32) (main_arg3 : FVec F S2x8x2048x64 .f32) (main_arg4 : FVec F S2x8x2048x64 .f32) (main_arg5 : FVec F S2x8x2048x64 .f32) (main_arg6 : FVec F S1x1x2048x2048 .f32) (main_arg7 : FVec F S1 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  let main_v14 : FVec F S2x8x2048x64 .f32 := Host.absf main_arg3
  let main_cst_4 : FVec F S_ .f32 := constant S_ .f32 0x7F800000#32
  let main_v15 : FVec F S2x8x2048x64 .f32 := broadcastInDim S2x8x2048x64 ![] bcast_S_S2x8x2048x64 main_cst_4
  let main_v16 : IVec S2x8x2048x64 1 := cmpf .olt main_v14 main_v15
  fn_part1 (F := F) main_arg4 main_arg5 main_arg6 main_arg7 main_v13 main_v16
-- ==== Kernel.lean ====
abbrev S2x8x2048x64 : Shape := ⟨4, ![2, 8, 2048, 64]⟩
abbrev S1x1x2048x2048 : Shape := ⟨4, ![1, 1, 2048, 2048]⟩
abbrev S1 : Shape := ⟨1, ![1]⟩
abbrev S1x1x1x1 : Shape := ⟨4, ![1, 1, 1, 1]⟩
abbrev S2x8x2048x2048 : Shape := ⟨4, ![2, 8, 2048, 2048]⟩
abbrev S1x1x128x64 : Shape := ⟨4, ![1, 1, 128, 64]⟩
abbrev S1x1x2048x64 : Shape := ⟨4, ![1, 1, 2048, 64]⟩
abbrev S1x1x128x2048 : Shape := ⟨4, ![1, 1, 128, 2048]⟩
abbrev S128x64 : Shape := ⟨2, ![128, 64]⟩
abbrev S2048x64 : Shape := ⟨2, ![2048, 64]⟩
abbrev S128x2048 : Shape := ⟨2, ![128, 2048]⟩
abbrev S128 : Shape := ⟨1, ![128]⟩
abbrev S128x1 : Shape := ⟨2, ![128, 1]⟩

abbrev nBuf : Space → Nat
  | .hbm => 17
  | .vmem => 21
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x64, .f32⟩
  | .hbm, ⟨4, _⟩ => ⟨S2x8x2048x64, .f32⟩
  | .hbm, ⟨5, _⟩ => ⟨S2x8x2048x64, .f32⟩
  | .hbm, ⟨6, _⟩ => ⟨S1x1x2048x2048, .f32⟩
  | .hbm, ⟨7, _⟩ => ⟨S1, .f32⟩
  | .hbm, ⟨8, _⟩ => ⟨S1, .f32⟩
  | .hbm, ⟨9, _⟩ => ⟨S1x1x1x1, .f32⟩
  | .hbm, ⟨10, _⟩ => ⟨S1x1x2048x2048, .f32⟩
  | .hbm, ⟨11, _⟩ => ⟨S1x1x2048x2048, .f32⟩
  | .hbm, ⟨12, _⟩ => ⟨S1x1x2048x2048, .f32⟩
  | .hbm, ⟨13, _⟩ => ⟨S2x8x2048x64, .f32⟩
  | .hbm, ⟨14, _⟩ => ⟨S2x8x2048x64, .f32⟩
  | .hbm, ⟨15, _⟩ => ⟨S2x8x2048x2048, .f32⟩
  | .hbm, ⟨16, _⟩ => ⟨S2x8x2048x2048, .f32⟩
  | .local _ .vmem, ⟨0, _⟩ => ⟨S1x1x128x64, .f32⟩
  | .local _ .vmem, ⟨1, _⟩ => ⟨S1x1x128x64, .f32⟩
  | .local _ .vmem, ⟨2, _⟩ => ⟨S1x1x128x64, .f32⟩
  | .local _ .vmem, ⟨3, _⟩ => ⟨S1x1x128x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x64, .f32⟩
  | .local _ .vmem, ⟨7, _⟩ => ⟨S1x1x2048x64, .f32⟩
  | .local _ .vmem, ⟨8, _⟩ => ⟨S1x1x2048x64, .f32⟩
  | .local _ .vmem, ⟨9, _⟩ => ⟨S1x1x2048x64, .f32⟩
  | .local _ .vmem, ⟨10, _⟩ => ⟨S1x1x2048x64, .f32⟩
  | .local _ .vmem, ⟨11, _⟩ => ⟨S1x1x2048x64, .f32⟩
  | .local _ .vmem, ⟨12, _⟩ => ⟨S1x1x2048x2048, .f32⟩
  | .local _ .vmem, ⟨13, _⟩ => ⟨S1x1x128x64, .f32⟩
  | .local _ .vmem, ⟨14, _⟩ => ⟨S1x1x128x64, .f32⟩
  | .local _ .vmem, ⟨15, _⟩ => ⟨S1x1x128x64, .f32⟩
  | .local _ .vmem, ⟨16, _⟩ => ⟨S1x1x128x64, .f32⟩
  | .local _ .vmem, ⟨17, _⟩ => ⟨S1x1x128x2048, .f32⟩
  | .local _ .vmem, ⟨18, _⟩ => ⟨S1x1x128x2048, .f32⟩
  | .local _ .vmem, ⟨19, _⟩ => ⟨S1x1x128x2048, .f32⟩
  | .local _ .vmem, ⟨20, _⟩ => ⟨S1x1x128x2048, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c128_i32 : BitVec 32 := 128#32
  let v28 : BitVec 32 := Scalar.muli arg2 c128_i32
  v28
def k0_off1 (i : grid0.Coords) : Fin 4 → Nat :=
  let c0_28 : Index := 0#32
  let c0_29 : Index := 0#32
  let arg2 : BitVec 32 := BitVec.ofNat 32 (i 2).val
  let c128_i32 : BitVec 32 := 128#32
  let v28 : BitVec 32 := Scalar.muli arg2 c128_i32
  let v29 : BitVec 32 := v28
  let v30 : Index := Scalar.indexCast v29
  let c0_30 : Index := 0#32
  ![0, 0, v30.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1x2048x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  bcast_S1_S1x1x1x1_3 : S1.BroadcastsInDim S1x1x1x1 (![3] : Fin 1 → Fin S1x1x1x1.rank)
  bcast_S1x1x1x1_S1x1x2048x2048_0_1_2_3 : S1x1x1x1.BroadcastsInDim S1x1x2048x2048 (![0, 1, 2, 3] : Fin 4 → Fin S1x1x2048x2048.rank)
  inb_S1x1x128x64_S1x1x128x64_0_0_0_0 : ∀ a, (![0, 0, 0, 0] : Fin 4 → Nat) a + S1x1x128x64.size a ≤ S1x1x128x64.size a
  h_S1x1x128x64 : 0 < S1x1x128x64.numel
  shapeCasts_S1x1x128x64_S128x64 : S1x1x128x64.ShapeCasts S128x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S1x1x128x2048 : 0 < S1x1x128x2048.numel
  shapeCasts_S1x1x128x2048_S128x2048 : S1x1x128x2048.ShapeCasts S128x2048
  reduces_S128x2048_S128 : S128x2048.Reduces [1] S128
  shapeCasts_S128_S128x1 : S128.ShapeCasts S128x1
  broadcasts_S128x1_S128x2048 : S128x1.Broadcasts S128x2048
  inb_S1x1x128x2048_S1x1x128x2048_0_0_0_0 : ∀ a, (![0, 0, 0, 0] : Fin 4 → Nat) a + S1x1x128x2048.size a ≤ S1x1x128x2048.size a
  shapeCasts_S128x2048_S1x1x128x2048 : S128x2048.ShapeCasts S1x1x128x2048
  shapeCasts_S128x64_S1x1x128x64 : S128x64.ShapeCasts S1x1x128x64
  dot_S128x64_S2048x64_S128x2048_1_1_0_0_n_n_wf : DotDims.WF S128x64 S2048x64 S128x2048 [1] [1] [0] [0] [] []
  dot_S128x2048_S2048x64_S128x64_1_0_0_1_n_n_wf : DotDims.WF S128x2048 S2048x64 S128x64 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x1x128x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x64.size a ≤ S2x8x2048x64.size a
  hwx0_0 : ∀ i : grid0.Coords, EltTy.bits .f32 = 32 ∨ (Rect.block (s := S2x8x2048x64) S1x1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x64.size a ≤ S2x8x2048x64.size a
  hwx0_1 : ∀ i : grid0.Coords, EltTy.bits .f32 = 32 ∨ (Rect.block (s := S2x8x2048x64) S1x1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x8x2048x64.size a
  hwx0_2 : ∀ i : grid0.Coords, EltTy.bits .f32 = 32 ∨ (Rect.block (s := S2x8x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x64.size a ≤ S2x8x2048x64.size a
  hwx0_3 : ∀ i : grid0.Coords, EltTy.bits .f32 = 32 ∨ (Rect.block (s := S2x8x2048x64) S1x1x2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x64.size a ≤ S2x8x2048x64.size a
  hwx0_4 : ∀ i : grid0.Coords, EltTy.bits .f32 = 32 ∨ (Rect.block (s := S2x8x2048x64) S1x1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048x64.size a ≤ S2x8x2048x64.size a
  hwx0_5 : ∀ i : grid0.Coords, EltTy.bits .f32 = 32 ∨ (Rect.block (s := S2x8x2048x64) S1x1x2048x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x2048x2048.size a ≤ S1x1x2048x2048.size a
  hwx0_6 : ∀ i : grid0.Coords, EltTy.bits .f32 = 32 ∨ (Rect.block (s := S1x1x2048x2048) S1x1x2048x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128x64.size a ≤ S2x8x2048x64.size a
  hwx0_7 : ∀ i : grid0.Coords, EltTy.bits .f32 = 32 ∨ (Rect.block (s := S2x8x2048x64) S1x1x128x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128x64.size a ≤ S2x8x2048x64.size a
  hwx0_8 : ∀ i : grid0.Coords, EltTy.bits .f32 = 32 ∨ (Rect.block (s := S2x8x2048x64) S1x1x128x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128x2048.size a ≤ S2x8x2048x2048.size a
  hwx0_9 : ∀ i : grid0.Coords, EltTy.bits .f32 = 32 ∨ (Rect.block (s := S2x8x2048x2048) S1x1x128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128x2048.size a ≤ S2x8x2048x2048.size a
  hwx0_10 : ∀ i : grid0.Coords, EltTy.bits .f32 = 32 ∨ (Rect.block (s := S2x8x2048x2048) S1x1x128x2048.size (cc0_transform_10 i) (hinb0_10 i)).WholeWords (EltTy.packing .f32)

variable [Facts₀]

def dot_S128x64_S2048x64_S128x2048_1_1_0_0_n_n : DotDims S128x64 S2048x64 S128x2048 where
  lhsContracting := [1]
  rhsContracting := [1]
  lhsNonContracting := [0]
  rhsNonContracting := [0]
  lhsBatch := []
  rhsBatch := []
  wf := dot_S128x64_S2048x64_S128x2048_1_1_0_0_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf

abbrev win0_0 : Pipeline.Window sig grid0 :=
  Pipeline.Window.ofSpec (Memref.whole main_arg0) S1x1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x2048x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x2048x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1x2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S1x1x128x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S1x1x128x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_2) S1x1x128x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_3) S1x1x128x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S1x1x2048x2048 : Shape := ⟨4, ![1, 1, 2048, 2048]⟩
abbrev S1 : Shape := ⟨1, ![1]⟩
abbrev S_ : Shape := ⟨0, ![]⟩
abbrev S2x8x2048x2048 : Shape := ⟨4, ![2, 8, 2048, 2048]⟩
abbrev S1x1x1x1 : Shape := ⟨4, ![1, 1, 1, 1]⟩
abbrev S2x8x2048 : Shape := ⟨3, ![2, 8, 2048]⟩
abbrev S2x8x2048x1 : Shape := ⟨4, ![2, 8, 2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x64, .f32⟩
  | .hbm, ⟨4, _⟩ => ⟨S2x8x2048x64, .f32⟩
  | .hbm, ⟨5, _⟩ => ⟨S2x8x2048x64, .f32⟩
  | .hbm, ⟨6, _⟩ => ⟨S1x1x2048x2048, .f32⟩
  | .hbm, ⟨7, _⟩ => ⟨S1, .f32⟩
  | .hbm, ⟨8, _⟩ => ⟨S_, .f32⟩
  | .hbm, ⟨9, _⟩ => ⟨S2x8x2048x64, .f32⟩
  | .hbm, ⟨10, _⟩ => ⟨S2x8x2048x64, .f32⟩
  | .hbm, ⟨11, _⟩ => ⟨S2x8x2048x2048, .f32⟩
  | .hbm, ⟨12, _⟩ => ⟨S_, .f32⟩
  | .hbm, ⟨13, _⟩ => ⟨S2x8x2048x64, .f32⟩
  | .hbm, ⟨14, _⟩ => ⟨S2x8x2048x64, .f32⟩
  | .hbm, ⟨15, _⟩ => ⟨S2x8x2048x2048, .f32⟩
  | .hbm, ⟨16, _⟩ => ⟨S2x8x2048x2048, .f32⟩
  | .hbm, ⟨17, _⟩ => ⟨S_, .f32⟩
  | .hbm, ⟨18, _⟩ => ⟨S2x8x2048x64, .f32⟩
  | .hbm, ⟨19, _⟩ => ⟨S2x8x2048x64, .f32⟩
  | .hbm, ⟨20, _⟩ => ⟨S2x8x2048x2048, .f32⟩
  | .hbm, ⟨21, _⟩ => ⟨S_, .f32⟩
  | .hbm, ⟨22, _⟩ => ⟨S2x8x2048x64, .f32⟩
  | .hbm, ⟨23, _⟩ => ⟨S2x8x2048x64, .f32⟩
  | .hbm, ⟨24, _⟩ => ⟨S2x8x2048x2048, .f32⟩
  | .hbm, ⟨25, _⟩ => ⟨S2x8x2048x2048, .f32⟩
  | .hbm, ⟨26, _⟩ => ⟨S1, .f32⟩
  | .hbm, ⟨27, _⟩ => ⟨S1x1x1x1, .f32⟩
  | .hbm, ⟨28, _⟩ => ⟨S1x1x2048x2048, .f32⟩
  | .hbm, ⟨29, _⟩ => ⟨S1x1x2048x2048, .f32⟩
  | .hbm, ⟨30, _⟩ => ⟨S1x1x2048x2048, .f32⟩
  | .hbm, ⟨31, _⟩ => ⟨S2x8x2048x2048, .f32⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S2x8x2048, .f32⟩
  | .hbm, ⟨36, _⟩ => ⟨S_, .f32⟩
  | .hbm, ⟨37, _⟩ => ⟨S2x8x2048, .f32⟩
  | .hbm, ⟨38, _⟩ => ⟨S2x8x2048, .f32⟩
  | .hbm, ⟨39, _⟩ => ⟨S2x8x2048x1, .f32⟩
  | .hbm, ⟨40, _⟩ => ⟨S2x8x2048x2048, .f32⟩
  | .hbm, ⟨41, _⟩ => ⟨S2x8x2048x2048, .f32⟩
  | .hbm, ⟨42, _⟩ => ⟨S2x8x2048x2048, .f32⟩
  | .hbm, ⟨43, _⟩ => ⟨S_, .f32⟩
  | .hbm, ⟨44, _⟩ => ⟨S2x8x2048, .f32⟩
  | .hbm, ⟨45, _⟩ => ⟨S2x8x2048x1, .f32⟩
  | .hbm, ⟨46, _⟩ => ⟨S2x8x2048x2048, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S2x8x2048x2048, .f32⟩
  | .hbm, ⟨51, _⟩ => ⟨S_, .f32⟩
  | .hbm, ⟨52, _⟩ => ⟨S2x8x2048, .f32⟩
  | .hbm, ⟨53, _⟩ => ⟨S_, .f32⟩
  | .hbm, ⟨54, _⟩ => ⟨S2x8x2048, .f32⟩
  | .hbm, ⟨55, _⟩ => ⟨S2x8x2048, .f32⟩
  | .hbm, ⟨56, _⟩ => ⟨S2x8x2048x1, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S_, .f32⟩
  | .hbm, ⟨61, _⟩ => ⟨S2x8x2048, .f32⟩
  | .hbm, ⟨62, _⟩ => ⟨S2x8x2048x1, .f32⟩
  | .hbm, ⟨63, _⟩ => ⟨S2x8x2048x2048, .f32⟩
  | .hbm, ⟨64, _⟩ => ⟨S2x8x2048x2048, .f32⟩
  | .hbm, ⟨65, _⟩ => ⟨S2x8x2048x64, .f32⟩
  | .hbm, ⟨66, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  bcast_S_S2x8x2048x64 : S_.BroadcastsInDim S2x8x2048x64 (![] : Fin 0 → Fin S2x8x2048x64.rank)
  bcast_S1_S1x1x1x1_3 : S1.BroadcastsInDim S1x1x1x1 (![3] : Fin 1 → Fin S1x1x1x1.rank)
  bcast_S1x1x1x1_S1x1x2048x2048_0_1_2_3 : S1x1x1x1.BroadcastsInDim S1x1x2048x2048 (![0, 1, 2, 3] : Fin 4 → Fin S1x1x2048x2048.rank)
  bcast_S1x1x2048x2048_S2x8x2048x2048_0_1_2_3 : S1x1x2048x2048.BroadcastsInDim S2x8x2048x2048 (![0, 1, 2, 3] : Fin 4 → Fin S2x8x2048x2048.rank)
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.BodyOut.lean ====
/-
  What one grid step leaves in each output block.

  At a grid point the body loads the two query blocks, the two key blocks, the two value blocks and a band of 128 rows of
  the resident gate (rows 128·s … 128·s + 127 for the point's third coordinate s), and stores each output block once,
  whole. So each output block after the step is the stored value: the real (imaginary) probabilities are the row
  softmax of the gated real (imaginary) scores, and each output is the probabilities' product with the value block.
  Here each is identified, for any float instance, as the body's arithmetic of the loaded blocks.
-/
import proofs.«157977_j84576495993326_2_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

theorem hz4 : (![0, 0, 0, 0] : Fin 4 → Nat) = fun _ => 0 := funext fun a => by fin_cases a <;> rfl

/-- The band of the resident gate the step reads: 128 rows starting at row 128·(third grid coordinate). -/
def gateBand (i : grid0.Coords) (x6 : Vec F S1x1x2048x2048 .f32) : Vec F S1x1x128x2048 .f32 :=
  View.ld x6 (Rect.unit (s := S1x1x2048x2048) (k0_off1 i) S1x1x128x2048.size (k0_off1_inb i))

/-- The real-part scores of the step's query rows against every key row. -/
abbrev scoreRe (x0 x1 : Vec F S1x1x128x64 .f32) (x2 x3 : Vec F S1x1x2048x64 .f32) : FVec F S128x2048 .f32 := k0_pay9 x0 x1 x2 x3

/-- The real-part probabilities' block: the row softmax of the gated real scores. -/
theorem out9_eq (c : Dev nD) (i : grid0.Coords) (arg3 : Memref sig .tc .vmem S1x1x128x64 .f32) (harg3 : arg3.IsWhole) (arg4 : Memref sig .tc .vmem S1x1x128x64 .f32) (harg4 : arg4.IsWhole) (arg5 : Memref sig .tc .vmem S1x1x2048x64 .f32) (harg5 : arg5.IsWhole) (arg6 : Memref sig .tc .vmem S1x1x2048x64 .f32) (harg6 : arg6.IsWhole) (arg7 : Memref sig .tc .vmem S1x1x2048x64 .f32) (harg7 : arg7.IsWhole) (arg8 : Memref sig .tc .vmem S1x1x2048x64 .f32) (harg8 : arg8.IsWhole) (arg9 : Memref sig .tc .vmem S1x1x2048x2048 .f32) (harg9 : arg9.IsWhole) (arg10 : Memref sig .tc .vmem S1x1x128x64 .f32) (harg10 : arg10.IsWhole) (arg11 : Memref sig .tc .vmem S1x1x128x64 .f32) (harg11 : arg11.IsWhole) (arg12 : Memref sig .tc .vmem S1x1x128x2048 .f32) (harg12 : arg12.IsWhole) (arg13 : Memref sig .tc .vmem S1x1x128x2048 .f32) (harg13 : arg13.IsWhole) (x0 : Vec F S1x1x128x64 .f32) (x1 : Vec F S1x1x128x64 .f32) (x2 : Vec F S1x1x2048x64 .f32) (x3 : Vec F S1x1x2048x64 .f32) (x4 : Vec F S1x1x2048x64 .f32) (x5 : Vec F S1x1x2048x64 .f32) (x6 : Vec F S1x1x2048x2048 .f32) :
    out0_A_9 c i arg3 harg3 arg4 harg4 arg5 harg5 arg6 harg6 arg7 harg7 arg8 harg8 arg9 harg9 arg10 harg10 arg11 harg11 arg12 harg12 arg13 harg13 x0 x1 x2 x3 x4 x5 x6 = k0_pay15 (scoreRe x0 x1 x2 x3) (gateBand i x6) := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 x0 x1 x2 x3 x4 x5 x6)]
  unfold kernelRun0_A
  dsimp only
  sl_unfold_words
  rw [View.canon_unit_zero hz4]
  simp only [View.readAt_eq_ld, harg3.read_unread, harg4.read_unread, harg5.read_unread, harg6.read_unread, harg7.read_unread,
    harg8.read_unread, harg9.read_unread, View.ld_unit_zero (S := S1x1x128x64) hz4, View.ld_unit_zero (S := S1x1x2048x64) hz4]
  rfl

/-- The imaginary-part probabilities' block: the row softmax of the gated imaginary scores. -/
theorem out10_eq (c : Dev nD) (i : grid0.Coords) (arg3 : Memref sig .tc .vmem S1x1x128x64 .f32) (harg3 : arg3.IsWhole) (arg4 : Memref sig .tc .vmem S1x1x128x64 .f32) (harg4 : arg4.IsWhole) (arg5 : Memref sig .tc .vmem S1x1x2048x64 .f32) (harg5 : arg5.IsWhole) (arg6 : Memref sig .tc .vmem S1x1x2048x64 .f32) (harg6 : arg6.IsWhole) (arg7 : Memref sig .tc .vmem S1x1x2048x64 .f32) (harg7 : arg7.IsWhole) (arg8 : Memref sig .tc .vmem S1x1x2048x64 .f32) (harg8 : arg8.IsWhole) (arg9 : Memref sig .tc .vmem S1x1x2048x2048 .f32) (harg9 : arg9.IsWhole) (arg10 : Memref sig .tc .vmem S1x1x128x64 .f32) (harg10 : arg10.IsWhole) (arg11 : Memref sig .tc .vmem S1x1x128x64 .f32) (harg11 : arg11.IsWhole) (arg12 : Memref sig .tc .vmem S1x1x128x2048 .f32) (harg12 : arg12.IsWhole) (arg13 : Memref sig .tc .vmem S1x1x128x2048 .f32) (harg13 : arg13.IsWhole) (x0 : Vec F S1x1x128x64 .f32) (x1 : Vec F S1x1x128x64 .f32) (x2 : Vec F S1x1x2048x64 .f32) (x3 : Vec F S1x1x2048x64 .f32) (x4 : Vec F S1x1x2048x64 .f32) (x5 : Vec F S1x1x2048x64 .f32) (x6 : Vec F S1x1x2048x2048 .f32) :
    out0_A_10 c i arg3 harg3 arg4 harg4 arg5 harg5 arg6 harg6 arg7 harg7 arg8 harg8 arg9 harg9 arg10 harg10 arg11 harg11 arg12 harg12 arg13 harg13 x0 x1 x2 x3 x4 x5 x6 = k0_pay16 (k0_pay10 x1 x2) (k0_pay11 x0 x3) (gateBand i x6) := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 x0 x1 x2 x3 x4 x5 x6)]
  unfold kernelRun0_A
  dsimp only
  sl_unfold_words
  rw [View.canon_unit_zero hz4]
  simp only [View.readAt_eq_ld, harg3.read_unread, harg4.read_unread, harg5.read_unread, harg6.read_unread, harg7.read_unread,
    harg8.read_unread, harg9.read_unread, View.ld_unit_zero (S := S1x1x128x64) hz4, View.ld_unit_zero (S := S1x1x2048x64) hz4]
  rfl

/-- The real-part output block: the real probabilities times the real value block. -/
theorem out7_eq (c : Dev nD) (i : grid0.Coords) (arg3 : Memref sig .tc .vmem S1x1x128x64 .f32) (harg3 : arg3.IsWhole) (arg4 : Memref sig .tc .vmem S1x1x128x64 .f32) (harg4 : arg4.IsWhole) (arg5 : Memref sig .tc .vmem S1x1x2048x64 .f32) (harg5 : arg5.IsWhole) (arg6 : Memref sig .tc .vmem S1x1x2048x64 .f32) (harg6 : arg6.IsWhole) (arg7 : Memref sig .tc .vmem S1x1x2048x64 .f32) (harg7 : arg7.IsWhole) (arg8 : Memref sig .tc .vmem S1x1x2048x64 .f32) (harg8 : arg8.IsWhole) (arg9 : Memref sig .tc .vmem S1x1x2048x2048 .f32) (harg9 : arg9.IsWhole) (arg10 : Memref sig .tc .vmem S1x1x128x64 .f32) (harg10 : arg10.IsWhole) (arg11 : Memref sig .tc .vmem S1x1x128x64 .f32) (harg11 : arg11.IsWhole) (arg12 : Memref sig .tc .vmem S1x1x128x2048 .f32) (harg12 : arg12.IsWhole) (arg13 : Memref sig .tc .vmem S1x1x128x2048 .f32) (harg13 : arg13.IsWhole) (x0 : Vec F S1x1x128x64 .f32) (x1 : Vec F S1x1x128x64 .f32) (x2 : Vec F S1x1x2048x64 .f32) (x3 : Vec F S1x1x2048x64 .f32) (x4 : Vec F S1x1x2048x64 .f32) (x5 : Vec F S1x1x2048x64 .f32) (x6 : Vec F S1x1x2048x2048 .f32) :
    out0_A_7 c i arg3 harg3 arg4 harg4 arg5 harg5 arg6 harg6 arg7 harg7 arg8 harg8 arg9 harg9 arg10 harg10 arg11 harg11 arg12 harg12 arg13 harg13 x0 x1 x2 x3 x4 x5 x6 = k0_pay1 (k0_pay17 (k0_pay7 x4) (scoreRe x0 x1 x2 x3) (gateBand i x6)) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 arg13 harg13 x0 x1 x2 x3 x4 x5 x6)]
  unfold kernelRun0_A
  dsimp only
  sl_unfold_words
  rw [View.canon_unit_zero hz4]
  simp only [View.readAt_eq_ld, harg3.read_unread, harg4.read_unread, harg5.read_unread, harg6.read_unread, harg7.read_unread,
    harg8.read_unread, harg9.read_unread, View.ld_unit_zero (S := S1x1x128x64) hz4, View.ld_unit_zero (S := S1x1x2048x64) hz4]
  rfl

/-- The imaginary-part output block: the imaginary probabilities times the imaginary value block. -/
theorem out8_eq (c : Dev nD) (i : grid0.Coords) (arg3 : Memref sig .tc .vmem S1x1x128x64 .f32) (harg3 : arg3.IsWhole) (arg4 : Memref sig .tc .vmem S1x1x128x64 .f32) (harg4 : arg4.IsWhole) (arg5 : Memref sig .tc .vmem S1x1x2048x64 .f32) (harg5 : arg5.IsWhole) (arg6 : Memref sig .tc .vmem S1x1x2048x64 .f32) (harg6 : arg6.IsWhole) (arg7 : Memref sig .tc .vmem S1x1x2048x64 .f32) (harg7 : arg7.IsWhole) (arg8 : Memref sig .tc .vmem S1x1x2048x64 .f32) (harg8 : arg8.IsWhole) (arg9 : Memref sig .tc .vmem S1x1x2048x2048 .f32) (harg9 : arg9.IsWhole) (arg10 : Memref sig .tc .vmem S1x1x128x64 .f32) (harg10 : arg10.IsWhole) (arg11 : Memref sig .tc .vmem S1x1x128x64 .f32) (harg11 : arg11.IsWhole) (arg12 : Memref sig .tc .vmem S1x1x128x2048 .f32) (harg12 : arg12.IsWhole) (arg13 : Memref sig .tc .vmem S1x1x128x2048 .f32) (harg13 : arg13.IsWhole) (x0 : Vec F S1x1x128x64 .f32) (x1 : Vec F S1x1x128x64 .f32) (x2 : Vec F S1x1x2048x64 .f32) (x3 : Vec F S1x1x2048x64 .f32) (x4 : Vec F S1x1x2048x64 .f32) (x5 : Vec F S1x1x2048x64 .f32) (x6 : Vec F S1x1x2048x2048 .f32) :
    out0_A_8 c i arg3 harg3 arg4 harg4 arg5 harg5 arg6 harg6 arg7 harg7 arg8 harg8 arg9 harg9 arg10 harg10 arg11 harg11 arg12 harg12 arg13 harg13 x0 x1 x2 x3 x4 x5 x6 = k0_pay2 (k0_pay8 x5) (k0_pay14 (k0_pay10 x1 x2) (k0_pay11 x0 x3) (gateBand i x6)) := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 x0 x1 x2 x3 x4 x5 x6)]
  unfold kernelRun0_A
  dsimp only
  sl_unfold_words
  rw [View.canon_unit_zero hz4]
  simp only [View.readAt_eq_ld, harg3.read_unread, harg4.read_unread, harg5.read_unread, harg6.read_unread, harg7.read_unread,
    harg8.read_unread, harg9.read_unread, View.ld_unit_zero (S := S1x1x128x64) hz4, View.ld_unit_zero (S := S1x1x2048x64) hz4]
  rfl

end Cert.KernelIdeal.Body

end
-- ==== Proof.Spec.lean ====
/-
  Complex-valued gated attention, as one function of the argument arrays over the extended reals.

  For a batch b, a head h and a query row q, the two score rows are
      re(k) = Σ_d (q_r[q,d]/8)·k_r[k,d] + Σ_d (q_i[q,d]/8)·k_i[k,d]
      im(k) = Σ_d (q_i[q,d]/8)·k_r[k,d] − Σ_d (q_r[q,d]/8)·k_i[k,d]
  (the scale 1/8 is an exact dyadic, multiplied into the query entry before the contraction). Each is multiplied by
  the distance gate g[q,k] = exp(dwm[q,k] / (σ·σ)), taken in absolute value, and passed through a row softmax
      p(k) = exp(a(k) − M) / Σ_j exp(a(j) − M),   M = max_k a(k)   (the fold of max from −∞),
  and the outputs are the probabilities' contraction with the values, Σ_k p(k)·v[k,d]. Nothing here needs
  finiteness: both programs apply these very operations, and only the grouping of the finite sums differs.
-/
import Idealize.ShloMosaic.PureOps.Ideal
import Idealize.ShloMosaic.Lib.ValueIdx

noncomputable section

namespace Cert.CplxAttn

open Idealize.ShloMosaic Idealize.ShloMosaic.ValueIdx

/-- [batch, head, position, feature] -/
abbrev SQ : Shape := ⟨4, ![2, 8, 2048, 64]⟩
/-- [batch, head, query, key] -/
abbrev SA : Shape := ⟨4, ![2, 8, 2048, 2048]⟩
/-- the gate's [1, 1, query, key] -/
abbrev SG : Shape := ⟨4, ![1, 1, 2048, 2048]⟩
/-- σ's [1] -/
abbrev S1 : Shape := ⟨1, ![1]⟩

/-- The scale 1/8, as the pattern both programs carry. -/
abbrev eighth : EReal := Ideal.ofBits .f32 0x3E000000#32
/-- −∞, the value a row maximum starts from. -/
abbrev negInf : EReal := Ideal.ofBits .f32 0xFF800000#32

/-- |x| as both programs compute it. -/
abbrev absE (x : EReal) : EReal := FloatOps.absf (F := Ideal) (φ := .f32) x

/-- Σ_d (x d · 1/8) · y d: a scaled query row against a key row. -/
def sdot (x y : Fin 64 → EReal) : EReal := ∑ d : Fin 64, x d * eighth * y d

/-- The maximum of a row of 2048 entries, from −∞. -/
def rowMax (a : Fin 2048 → EReal) : EReal := (Finset.univ : Finset (Fin 2048)).fold max negInf a

/-- The row softmax: exp(a k − M) / Σ_j exp(a j − M). -/
def softmaxRow (a : Fin 2048 → EReal) (k : Fin 2048) : EReal :=
  Ideal.div (Ideal.exp (a k - rowMax a)) (∑ j : Fin 2048, Ideal.exp (a j - rowMax a))

/-- The gated real-part logits of one query row. -/
def logitRe (qr qi : Fin 64 → EReal) (kr ki : Fin 2048 → Fin 64 → EReal) (g : Fin 2048 → EReal) (k : Fin 2048) : EReal :=
  absE ((sdot qr (kr k) + sdot qi (ki k)) * g k)

/-- The gated imaginary-part logits of one query row. -/
def logitIm (qr qi : Fin 64 → EReal) (kr ki : Fin 2048 → Fin 64 → EReal) (g : Fin 2048 → EReal) (k : Fin 2048) : EReal :=
  absE ((sdot qi (kr k) - sdot qr (ki k)) * g k)

/-- The gate array exp(dwm / (σ·σ)). -/
def gateOf (w : SG.Idx → EReal) (s : S1.Idx → EReal) : SG.Idx → EReal :=
  fun i => Ideal.exp (Ideal.div (w i) (s (ix1 (0 : Fin 1)) * s (ix1 (0 : Fin 1))))

/-- Row (b, h, q) of an array [2, 8, 2048, n], as a function of the last coordinate. -/
abbrev rowOf {n : ℕ} (x : (⟨4, ![2, 8, 2048, n]⟩ : Shape).Idx → EReal) (b : Fin 2) (h : Fin 8) (q : Fin 2048) : Fin n → EReal :=
  fun d => x (ix4 b h q d)

/-- The real-part attention probabilities at (b, h, q, k). -/
def attnReAt (qr qi kr ki : SQ.Idx → EReal) (g : SG.Idx → EReal) (b : Fin 2) (h : Fin 8) (q k : Fin 2048) : EReal :=
  softmaxRow (logitRe (rowOf qr b h q) (rowOf qi b h q) (fun k' => rowOf kr b h k') (fun k' => rowOf ki b h k')
    (fun k' => g (ix4 (0 : Fin 1) (0 : Fin 1) q k'))) k

/-- The imaginary-part attention probabilities at (b, h, q, k). -/
def attnImAt (qr qi kr ki : SQ.Idx → EReal) (g : SG.Idx → EReal) (b : Fin 2) (h : Fin 8) (q k : Fin 2048) : EReal :=
  softmaxRow (logitIm (rowOf qr b h q) (rowOf qi b h q) (fun k' => rowOf kr b h k') (fun k' => rowOf ki b h k')
    (fun k' => g (ix4 (0 : Fin 1) (0 : Fin 1) q k'))) k

/-- The real-part probabilities as an array. -/
def attnRe (qr qi kr ki : SQ.Idx → EReal) (g : SG.Idx → EReal) : SA.Idx → EReal :=
  fun i => attnReAt qr qi kr ki g (i 0) (i 1) (i 2) (i 3)

/-- The imaginary-part probabilities as an array. -/
def attnIm (qr qi kr ki : SQ.Idx → EReal) (g : SG.Idx → EReal) : SA.Idx → EReal :=
  fun i => attnImAt qr qi kr ki g (i 0) (i 1) (i 2) (i 3)

/-- Probabilities contracted with values: Σ_k p[b,h,q,k] · v[b,h,k,d]. -/
def outOf (p : Fin 2 → Fin 8 → Fin 2048 → Fin 2048 → EReal) (v : SQ.Idx → EReal) : SQ.Idx → EReal :=
  fun i => ∑ k : Fin 2048, p (i 0) (i 1) (i 2) k * v (ix4 (i 0) (i 1) k (i 3))

/-- The real-part output. -/
def outRe (qr qi kr ki vr : SQ.Idx → EReal) (g : SG.Idx → EReal) : SQ.Idx → EReal :=
  outOf (attnReAt qr qi kr ki g) vr

/-- The imaginary-part output. -/
def outIm (qr qi kr ki vi : SQ.Idx → EReal) (g : SG.Idx → EReal) : SQ.Idx → EReal :=
  outOf (attnImAt qr qi kr ki g) vi

end Cert.CplxAttn

end
-- ==== Proof.LibRowMax.lean ====
/-
  A row maximum read at an index.

  A maximum over the last axis of an [a, b] array, read on the extended reals at row `p`, is the fold of `max`, from
  the value of the accumulator's pattern, over the `b` entries of that row: the reduced index with the dropped
  coordinate put back is `(p, k)`. With the accumulator at the pattern of −∞ — the least extended real, so that a
  maximum against it is the other argument (`max_negInf_f32`) — this is the row's maximum, as a softmax subtracts it.
  The lemmas hold for every extent.
-/
import Idealize.ShloMosaic.Lib.ValueIdx
import Idealize.ShloMosaic.PureOps.Ideal.Laws

noncomputable section

namespace Cert.Lib.RowMax

open Idealize.ShloMosaic Idealize.ShloMosaic.ValueIdx

/-- Over the extended reals the maximum of an [a, b] array along its last axis, read at row `p`, is the fold of
    `max` from the accumulator's value over `k < b` of the array at `(p, k)`. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f : Fin b → EReal => (Finset.univ : Finset (Fin b)).fold max (Ideal.ofBits φ acc) f)
      (funext fun k => congrArg v (funext fun d => Fin.ext (by
        match d with
        | ⟨0, _⟩ => rfl
        | ⟨1, _⟩ => rfl))))

/-- The f32 pattern of −∞ denotes the least extended real: a maximum against it is the other argument. -/
theorem max_negInf_f32 (y : EReal) : max (Ideal.ofBits .f32 0xFF800000#32) y = y := by
  simp [Ideal.ofBits, Ideal.ieee]

end Cert.Lib.RowMax

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibDotTransposedRhs.lean ====
/-
  A contraction with the right operand transposed, read at an output index, over the extended reals.

  For the dimension numbers "contract the left operand's axis 1 with the right operand's axis 1, no batch axis"
  (an [M,K] array against an [N,K] array: rows against rows, as a query block meets a key block), entry (p, g) of the
  product into a zero accumulator is the sum over k < K of the left operand at (p, k) times the right operand at
  (g, k). At the ideal instance nothing rounds and the order of a finite sum is immaterial. The statements are general
  in the three extents.
-/
import Idealize.ShloMosaic.PureOps.Ideal.Laws
import Idealize.ShloMosaic.Lib.ValueIdx

noncomputable section

namespace Cert.DotTransposedRhs

open Idealize.ShloMosaic Idealize.ShloMosaic.ValueIdx

variable (M K N : ℕ)

/-- Axis 0 of the left operand's index is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- Axis 1 of the left operand's index is the contraction position. -/
theorem lhs_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- Axis 0 of the right operand's index is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Axis 1 of the right operand's index is the contraction position. -/
theorem rhs_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum over its one-axis index shape is the sum over k < K of row entry times row entry. -/
theorem sum_eq (l : (⟨2, ![M, K]⟩ : Shape).Idx → EReal) (r : (⟨2, ![N, K]⟩ : Shape).Idx → EReal) (p : Fin M) (g : Fin N) :
    ∑ q : (DotDims.transposedRhs M K N).contr.Idx,
        l ((DotDims.transposedRhs M K N).lhsIdx (ix2 p g) q) * r ((DotDims.transposedRhs M K N).rhsIdx (ix2 p g) q)
      = ∑ k : Fin K, l (ix2 p k) * r (ix2 g k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p g) ((contrEquiv1 (DotDims.transposedRhs M K N) K rfl rfl).symm k) = ix2 p k :=
    funext fun a => Fin.ext (by
      match a with
      | ⟨0, _⟩ => exact lhs_row M K N _ _
      | ⟨1, _⟩ => exact (lhs_contr M K N _ _).trans hk)
  have er : (DotDims.transposedRhs M K N).rhsIdx (ix2 p g) ((contrEquiv1 (DotDims.transposedRhs M K N) K rfl rfl).symm k) = ix2 g k :=
    funext fun a => Fin.ext (by
      match a with
      | ⟨0, _⟩ => exact rhs_row M K N _ _
      | ⟨1, _⟩ => exact (rhs_contr M K N _ _).trans hk)
  rw [el, er]

variable {M K N}

/-- A matrix unit's product with these dimension numbers into the zero accumulator, at entry (p, g). -/
theorem matmul_zero_apply {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (p : Fin M) (g : Fin N) :
    matmul (F := Ideal) d none l r (constant ⟨2, ![M, N]⟩ .f32 0x00000000#32) (ix2 p g)
      = ∑ k : Fin K, l (ix2 p k) * r (ix2 g k) := by
  subst hd
  simp only [matmul]
  rw [Ideal.matmul_constant_zero_apply]
  exact sum_eq M K N l r p g

end Cert.DotTransposedRhs

end
-- ==== Proof.LibUnitBatch.lean ====
/-
  Blocks with two leading unit axes, read at an index.

  A pipelined kernel that squeezes a batch and a head coordinate out of its blocks loads a [1, 1, a, b] block and
  views it as an [a, b] matrix, and views its [a, b] result as a [1, 1, a, b] block again before storing it. Both views
  keep the row-major position: entry (p, q) of the matrix is entry (0, 0, p, q) of the block. The lemmas hold for
  every extent.
-/
import Idealize.ShloMosaic.Lib.Pipeline.Value
import Idealize.ShloMosaic.Lib.ValueIdx

noncomputable section

namespace Cert.Lib.UnitBatch

open Idealize.ShloMosaic Idealize.ShloMosaic.ValueIdx

variable {α : Type}

/-- A [1, 1, a, b] block viewed as an [a, b] matrix: entry (p, q) is the block's entry (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] matrix viewed as a [1, 1, a, b] block: entry (u, v, p, q) is the matrix's entry (p, q). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv]
    simp only [Nat.zero_mul, Nat.zero_add])

end Cert.Lib.UnitBatch

end
-- ==== Proof.BodyMath.lean ====
/-
  The body's arithmetic, read entry by entry over the extended reals.

  Blocks carry two leading unit axes; as matrices, the scaled query block is (q/8)[r, d], the key and value blocks are
  k[k, d] and v[k, d], the score block is the row-against-row product Σ_d (q[r,d]/8)·k[k,d], and a change of float format
  is the identity. The row softmax of a [128, 2048] block — subtract the row maximum (a lane maximum from −∞, kept as a
  column and spread back), exponentiate, divide by the row sum kept and spread the same way — is, at (r, k), the
  specification's softmax of row r at k. The output product is Σ_k p[r,k]·v[k,d].
-/
import proofs.«157977_j84576495993326_2_alg».proof.Proof.Gen.KernelIdeal.Skeleton
import proofs.«157977_j84576495993326_2_alg».proof.Proof.Spec
import proofs.«157977_j84576495993326_2_alg».proof.Proof.LibRowMax
import proofs.«157977_j84576495993326_2_alg».proof.Proof.LibKeepdims
import proofs.«157977_j84576495993326_2_alg».proof.Proof.LibPlainDot
import proofs.«157977_j84576495993326_2_alg».proof.Proof.LibDotTransposedRhs
import proofs.«157977_j84576495993326_2_alg».proof.Proof.LibUnitBatch

noncomputable section

namespace Cert.CplxAttn.Body

open Cert.KernelIdeal Cert.KernelIdeal.Gen Idealize.ShloMosaic Idealize.ShloMosaic.ValueIdx Cert.CplxAttn
open Cert.Lib.UnitBatch Cert.Lib.Keepdims Cert.Lib.RowMax

/-- Row r of a block [1, 1, a, n], as a function of the last coordinate. -/
abbrev brow {a n : ℕ} (x : (⟨4, ![1, 1, a, n]⟩ : Shape).Idx → EReal) (r : Fin a) : Fin n → EReal :=
  fun d => x (ix4 (0 : Fin 1) (0 : Fin 1) r d)

/-! ## The loaded blocks as matrices -/

/-- The real query block, scaled: entry (r, d) is q_r[r, d] · 1/8. -/
theorem scaledQr_apply (v0 : FVec Ideal S1x1x128x64 .f32) (r : Fin 128) (d : Fin 64) :
    k0_pay3 (F := Ideal) v0 (ix2 r d) = brow v0 r d * eighth := by
  unfold k0_pay3
  show shapeCast S128x64 v0 shapeCasts_S1x1x128x64_S128x64 (ix2 r d) * eighth = _
  rw [shapeCast_11ab_ab_apply]

/-- The imaginary query block, scaled. -/
theorem scaledQi_apply (v5 : FVec Ideal S1x1x128x64 .f32) (r : Fin 128) (d : Fin 64) :
    k0_pay4 (F := Ideal) v5 (ix2 r d) = brow v5 r d * eighth := by
  unfold k0_pay4
  show shapeCast S128x64 v5 shapeCasts_S1x1x128x64_S128x64 (ix2 r d) * eighth = _
  rw [shapeCast_11ab_ab_apply]

/-- The real key block as a matrix. -/
theorem keyR_apply (v : FVec Ideal S1x1x2048x64 .f32) (k : Fin 2048) (d : Fin 64) : k0_pay5 (F := Ideal) v (ix2 k d) = brow v k d := by
  unfold k0_pay5
  show shapeCast S2048x64 v shapeCasts_S1x1x2048x64_S2048x64 (ix2 k d) = _
  rw [shapeCast_11ab_ab_apply]

/-- The imaginary key block as a matrix. -/
theorem keyI_apply (v : FVec Ideal S1x1x2048x64 .f32) (k : Fin 2048) (d : Fin 64) : k0_pay6 (F := Ideal) v (ix2 k d) = brow v k d := by
  unfold k0_pay6
  show shapeCast S2048x64 v shapeCasts_S1x1x2048x64_S2048x64 (ix2 k d) = _
  rw [shapeCast_11ab_ab_apply]

/-- The real value block as a matrix. -/
theorem valR_apply (v : FVec Ideal S1x1x2048x64 .f32) (k : Fin 2048) (d : Fin 64) : k0_pay7 (F := Ideal) v (ix2 k d) = brow v k d := by
  unfold k0_pay7
  show shapeCast S2048x64 v shapeCasts_S1x1x2048x64_S2048x64 (ix2 k d) = _
  rw [shapeCast_11ab_ab_apply]

/-- The imaginary value block as a matrix. -/
theorem valI_apply (v : FVec Ideal S1x1x2048x64 .f32) (k : Fin 2048) (d : Fin 64) : k0_pay8 (F := Ideal) v (ix2 k d) = brow v k d := by
  unfold k0_pay8
  show shapeCast S2048x64 v shapeCasts_S1x1x2048x64_S2048x64 (ix2 k d) = _
  rw [shapeCast_11ab_ab_apply]

/-- The gate band as a matrix. -/
theorem gate_apply (v : FVec Ideal S1x1x128x2048 .f32) (r : Fin 128) (k : Fin 2048) : k0_pay12 (F := Ideal) v (ix2 r k) = brow v r k := by
  unfold k0_pay12
  show shapeCast S128x2048 v shapeCasts_S1x1x128x2048_S128x2048 (ix2 r k) = _
  rw [shapeCast_11ab_ab_apply]

/-! ## The score products -/

/-- A query matrix against a key matrix, rows against rows, into the zero accumulator. -/
theorem qk_apply (l : FVec Ideal S128x64 .bf16) (r : FVec Ideal S2048x64 .bf16) (p : Fin 128) (k : Fin 2048) :
    matmul (F := Ideal) dot_S128x64_S2048x64_S128x2048_1_1_0_0_n_n none l r (constant S128x2048 .f32 0x00000000#32) (ix2 p k)
      = ∑ d : Fin 64, l (ix2 p d) * r (ix2 k d) :=
  Cert.DotTransposedRhs.matmul_zero_apply dot_S128x64_S2048x64_S128x2048_1_1_0_0_n_n rfl l r p k

/-- q_r·k_r + q_i·k_i at (r, k). -/
theorem scoreRe_apply (v0 v5 : FVec Ideal S1x1x128x64 .f32) (v10 v13 : FVec Ideal S1x1x2048x64 .f32) (r : Fin 128) (k : Fin 2048) :
    k0_pay9 (F := Ideal) v0 v5 v10 v13 (ix2 r k) = sdot (brow v0 r) (brow v10 k) + sdot (brow v5 r) (brow v13 k) := by
  unfold k0_pay9
  show matmul (F := Ideal) dot_S128x64_S2048x64_S128x2048_1_1_0_0_n_n none (k0_pay3 v0) (k0_pay5 v10) (constant S128x2048 .f32 0x00000000#32) (ix2 r k)
      + matmul (F := Ideal) dot_S128x64_S2048x64_S128x2048_1_1_0_0_n_n none (k0_pay4 v5) (k0_pay6 v13) (constant S128x2048 .f32 0x00000000#32) (ix2 r k) = _
  rw [qk_apply, qk_apply]
  unfold sdot
  congr 1
  · exact Finset.sum_congr rfl fun d _ => by rw [scaledQr_apply, keyR_apply]
  · exact Finset.sum_congr rfl fun d _ => by rw [scaledQi_apply, keyI_apply]

/-- q_i·k_r at (r, k). -/
theorem scoreIr_apply (v5 : FVec Ideal S1x1x128x64 .f32) (v10 : FVec Ideal S1x1x2048x64 .f32) (r : Fin 128) (k : Fin 2048) :
    k0_pay10 (F := Ideal) v5 v10 (ix2 r k) = sdot (brow v5 r) (brow v10 k) := by
  unfold k0_pay10
  show matmul (F := Ideal) dot_S128x64_S2048x64_S128x2048_1_1_0_0_n_n none (k0_pay4 v5) (k0_pay5 v10) (constant S128x2048 .f32 0x00000000#32) (ix2 r k) = _
  rw [qk_apply]
  unfold sdot
  exact Finset.sum_congr rfl fun d _ => by rw [scaledQi_apply, keyR_apply]

/-- q_r·k_i at (r, k). -/
theorem scoreRi_apply (v0 : FVec Ideal S1x1x128x64 .f32) (v13 : FVec Ideal S1x1x2048x64 .f32) (r : Fin 128) (k : Fin 2048) :
    k0_pay11 (F := Ideal) v0 v13 (ix2 r k) = sdot (brow v0 r) (brow v13 k) := by
  unfold k0_pay11
  show matmul (F := Ideal) dot_S128x64_S2048x64_S128x2048_1_1_0_0_n_n none (k0_pay3 v0) (k0_pay6 v13) (constant S128x2048 .f32 0x00000000#32) (ix2 r k) = _
  rw [qk_apply]
  unfold sdot
  exact Finset.sum_congr rfl fun d _ => by rw [scaledQr_apply, keyI_apply]

/-! ## The row softmax of a [128, 2048] block -/

/-- exp(a − row maximum), the maximum taken along the lanes from −∞, kept as a column and spread over the row. -/
def expShift (a : FVec Ideal S128x2048 .f32) : FVec Ideal S128x2048 .f32 :=
  exp (subf a (broadcastTo S128x2048 (shapeCast S128x1
    (multiReduction (F := Ideal) .maximumf [1] S128 a 0xFF800000#32 reduces_S128x2048_S128 (.inl rfl) rfl) shapeCasts_S128_S128x1)
    broadcasts_S128x1_S128x2048))

/-- The block's row softmax: the shifted exponentials over their row sums, kept as a column and spread back. -/
def rowSoftmax (a : FVec Ideal S128x2048 .f32) : FVec Ideal S128x2048 .f32 :=
  divf (expShift a) (broadcastTo S128x2048 (shapeCast S128x1
    (multiReduction (F := Ideal) .add [1] S128 (expShift a) 0x00000000#32 reduces_S128x2048_S128 (.inl rfl) rfl) shapeCasts_S128_S128x1)
    broadcasts_S128x1_S128x2048)

/-- The lane maximum, kept as a column and spread over the row, at (r, k): the maximum of row r. -/
theorem colOfLaneMax_apply (a : FVec Ideal S128x2048 .f32) (r : Fin 128) (k : Fin 2048) :
    broadcastTo S128x2048 (shapeCast S128x1
      (multiReduction (F := Ideal) .maximumf [1] S128 a 0xFF800000#32 reduces_S128x2048_S128 (.inl rfl) rfl) shapeCasts_S128_S128x1)
      broadcasts_S128x1_S128x2048 (ix2 r k) = rowMax (fun k' => a (ix2 r k')) :=
  (broadcastTo_a1_ab_apply _ _ r k).trans ((shapeCast_a_a1_apply _ _ r (0 : Fin 1)).trans
    (laneMax_apply a 0xFF800000#32 reduces_S128x2048_S128 (.inl rfl) rfl r))

/-- The lane sum, kept as a column and spread over the row, at (r, k): the sum of row r. -/
theorem colOfLaneSum_apply (e : FVec Ideal S128x2048 .f32) (r : Fin 128) (k : Fin 2048) :
    broadcastTo S128x2048 (shapeCast S128x1
      (multiReduction (F := Ideal) .add [1] S128 e 0x00000000#32 reduces_S128x2048_S128 (.inl rfl) rfl) shapeCasts_S128_S128x1)
      broadcasts_S128x1_S128x2048 (ix2 r k) = ∑ j : Fin 2048, e (ix2 r j) :=
  (broadcastTo_a1_ab_apply _ _ r k).trans ((shapeCast_a_a1_apply _ _ r (0 : Fin 1)).trans
    (laneSum_apply e 0x00000000#32 reduces_S128x2048_S128 (.inl rfl) rfl r))

theorem expShift_apply (a : FVec Ideal S128x2048 .f32) (r : Fin 128) (k : Fin 2048) :
    expShift a (ix2 r k) = Ideal.exp (a (ix2 r k) - rowMax (fun k' => a (ix2 r k'))) := by
  unfold expShift
  exact congrArg (fun m => Ideal.exp (a (ix2 r k) - m)) (colOfLaneMax_apply a r k)

theorem rowSoftmax_apply (a : FVec Ideal S128x2048 .f32) (r : Fin 128) (k : Fin 2048) :
    rowSoftmax a (ix2 r k) = softmaxRow (fun k' => a (ix2 r k')) k := by
  unfold rowSoftmax softmaxRow
  exact congr (congrArg Ideal.div (expShift_apply a r k))
    ((colOfLaneSum_apply (expShift a) r k).trans (Finset.sum_congr rfl fun j _ => expShift_apply a r j))

/-! ## The probabilities and the outputs -/

/-- The real-part probabilities at (r, k): the softmax of the gated real logits of row r. -/
theorem probsRe_apply (v24 : FVec Ideal S128x2048 .f32) (v31 : FVec Ideal S1x1x128x2048 .f32) (r : Fin 128) (k : Fin 2048) :
    k0_pay13 (F := Ideal) v24 v31 (ix2 r k) = softmaxRow (fun k' => absE (v24 (ix2 r k') * brow v31 r k')) k := by
  have e : k0_pay13 (F := Ideal) v24 v31 = rowSoftmax (absf (mulf v24 (k0_pay12 v31))) := rfl
  rw [e, rowSoftmax_apply]
  refine congrArg (fun f => softmaxRow f k) (funext fun k' => ?_)
  show absE (v24 (ix2 r k') * k0_pay12 (F := Ideal) v31 (ix2 r k')) = _
  rw [gate_apply]

/-- The imaginary-part probabilities at (r, k). -/
theorem probsIm_apply (v25 v26 : FVec Ideal S128x2048 .f32) (v31 : FVec Ideal S1x1x128x2048 .f32) (r : Fin 128) (k : Fin 2048) :
    k0_pay14 (F := Ideal) v25 v26 v31 (ix2 r k)
      = softmaxRow (fun k' => absE ((v25 (ix2 r k') - v26 (ix2 r k')) * brow v31 r k')) k := by
  have e : k0_pay14 (F := Ideal) v25 v26 v31 = rowSoftmax (absf (mulf (subf v25 v26) (k0_pay12 v31))) := rfl
  rw [e, rowSoftmax_apply]
  refine congrArg (fun f => softmaxRow f k) (funext fun k' => ?_)
  show absE ((v25 (ix2 r k') - v26 (ix2 r k')) * k0_pay12 (F := Ideal) v31 (ix2 r k')) = _
  rw [gate_apply]

/-- Probabilities against a value matrix, into the zero accumulator: Σ_k p[r,k]·v[k,d]. -/
theorem pv_apply (p : FVec Ideal S128x2048 .bf16) (v : FVec Ideal S2048x64 .bf16) (r : Fin 128) (d : Fin 64) :
    matmul (F := Ideal) dot_S128x2048_S2048x64_S128x64_1_0_0_1_n_n none p v (constant S128x64 .f32 0x00000000#32) (ix2 r d)
      = ∑ k : Fin 2048, p (ix2 r k) * v (ix2 k d) :=
  Cert.PlainDot.matmul_zero_apply dot_S128x2048_S2048x64_S128x64_1_0_0_1_n_n rfl p v r d

/-- The stored real-part probabilities' block. -/
theorem storeProbsRe_apply (v24 : FVec Ideal S128x2048 .f32) (v31 : FVec Ideal S1x1x128x2048 .f32) (u v : Fin 1) (r : Fin 128) (k : Fin 2048) :
    k0_pay15 (F := Ideal) v24 v31 (ix4 u v r k) = k0_pay13 (F := Ideal) v24 v31 (ix2 r k) := by
  unfold k0_pay15
  show shapeCast S1x1x128x2048 (k0_pay13 (F := Ideal) v24 v31) shapeCasts_S128x2048_S1x1x128x2048 (ix4 u v r k) = _
  rw [shapeCast_ab_11ab_apply]

/-- The stored imaginary-part probabilities' block. -/
theorem storeProbsIm_apply (v25 v26 : FVec Ideal S128x2048 .f32) (v31 : FVec Ideal S1x1x128x2048 .f32) (u v : Fin 1) (r : Fin 128) (k : Fin 2048) :
    k0_pay16 (F := Ideal) v25 v26 v31 (ix4 u v r k) = k0_pay14 (F := Ideal) v25 v26 v31 (ix2 r k) := by
  unfold k0_pay16
  show shapeCast S1x1x128x2048 (k0_pay14 (F := Ideal) v25 v26 v31) shapeCasts_S128x2048_S1x1x128x2048 (ix4 u v r k) = _
  rw [shapeCast_ab_11ab_apply]

/-- The stored real-part output block: Σ_k p_re[r,k]·v_r[k,d]. -/
theorem storeOutRe_apply (v18 : FVec Ideal S2048x64 .bf16) (v24 : FVec Ideal S128x2048 .f32) (v31 : FVec Ideal S1x1x128x2048 .f32)
    (u v : Fin 1) (r : Fin 128) (d : Fin 64) :
    k0_pay1 (F := Ideal) (k0_pay17 (F := Ideal) v18 v24 v31) (ix4 u v r d)
      = ∑ k : Fin 2048, k0_pay13 (F := Ideal) v24 v31 (ix2 r k) * v18 (ix2 k d) := by
  unfold k0_pay1
  show shapeCast S1x1x128x64 (k0_pay17 (F := Ideal) v18 v24 v31) shapeCasts_S128x64_S1x1x128x64 (ix4 u v r d) = _
  rw [shapeCast_ab_11ab_apply]
  unfold k0_pay17
  exact pv_apply _ v18 r d

/-- The stored imaginary-part output block: Σ_k p_im[r,k]·v_i[k,d]. -/
theorem storeOutIm_apply (v21 : FVec Ideal S2048x64 .bf16) (v54 : FVec Ideal S128x2048 .f32) (u v : Fin 1) (r : Fin 128) (d : Fin 64) :
    k0_pay2 (F := Ideal) v21 v54 (ix4 u v r d) = ∑ k : Fin 2048, v54 (ix2 r k) * v21 (ix2 k d) := by
  unfold k0_pay2
  show shapeCast S1x1x128x64 (matmul (F := Ideal) dot_S128x2048_S2048x64_S128x64_1_0_0_1_n_n none (truncf .bf16 v54 bitsLt_bf16_f32) v21
    (constant S128x64 .f32 0x00000000#32)) shapeCasts_S128x64_S1x1x128x64 (ix4 u v r d) = _
  rw [shapeCast_ab_11ab_apply]
  exact pv_apply _ v21 r d

end Cert.CplxAttn.Body

end
-- ==== Proof.Blocks.lean ====
/-
  One row of one block against the arrays.

  Fix a batch b, a head h and a query row q of the arrays, and let row r of the step's two query blocks hold row
  (b, h, q) of q_r and q_i, the key and value blocks hold the [2048, 64] matrices of (b, h), and row r of the gate band
  hold row q of the gate. Then row r of each stored block holds row (b, h, q) of the specification's array: the logits
  agree entry by entry, hence the softmax rows, hence the products with the values.
-/
import proofs.«157977_j84576495993326_2_alg».proof.Proof.BodyMath

noncomputable section

namespace Cert.CplxAttn.Body

open Cert.KernelIdeal Cert.KernelIdeal.Gen Idealize.ShloMosaic Idealize.ShloMosaic.ValueIdx Cert.CplxAttn

/-- Row r of the real-part probabilities' matrix is row (b, h, q) of the specification's. -/
theorem probsRe_row (A0 A1 A2 A3 : SQ.Idx → EReal) (Ag : SG.Idx → EReal)
    (x0 x1 : FVec Ideal S1x1x128x64 .f32) (x2 x3 : FVec Ideal S1x1x2048x64 .f32) (g : FVec Ideal S1x1x128x2048 .f32)
    (b : Fin 2) (h : Fin 8) (q : Fin 2048) (r : Fin 128)
    (h0 : ∀ d, x0 (ix4 (0 : Fin 1) (0 : Fin 1) r d) = A0 (ix4 b h q d)) (h1 : ∀ d, x1 (ix4 (0 : Fin 1) (0 : Fin 1) r d) = A1 (ix4 b h q d))
    (h2 : ∀ k d, x2 (ix4 (0 : Fin 1) (0 : Fin 1) k d) = A2 (ix4 b h k d)) (h3 : ∀ k d, x3 (ix4 (0 : Fin 1) (0 : Fin 1) k d) = A3 (ix4 b h k d))
    (hg : ∀ k, g (ix4 (0 : Fin 1) (0 : Fin 1) r k) = Ag (ix4 (0 : Fin 1) (0 : Fin 1) q k)) (k : Fin 2048) :
    k0_pay13 (F := Ideal) (k0_pay9 (F := Ideal) x0 x1 x2 x3) g (ix2 r k) = attnReAt A0 A1 A2 A3 Ag b h q k := by
  rw [probsRe_apply]
  unfold attnReAt
  refine congrArg (fun f => softmaxRow f k) (funext fun k' => ?_)
  unfold logitRe
  rw [scoreRe_apply]
  have e0 : brow x0 r = rowOf A0 b h q := funext h0
  have e1 : brow x1 r = rowOf A1 b h q := funext h1
  have e2 : brow x2 k' = rowOf A2 b h k' := funext (h2 k')
  have e3 : brow x3 k' = rowOf A3 b h k' := funext (h3 k')
  rw [e0, e1, e2, e3]
  show absE (_ * g (ix4 (0 : Fin 1) (0 : Fin 1) r k')) = _
  rw [hg]

/-- Row r of the imaginary-part probabilities' matrix is row (b, h, q) of the specification's. -/
theorem probsIm_row (A0 A1 A2 A3 : SQ.Idx → EReal) (Ag : SG.Idx → EReal)
    (x0 x1 : FVec Ideal S1x1x128x64 .f32) (x2 x3 : FVec Ideal S1x1x2048x64 .f32) (g : FVec Ideal S1x1x128x2048 .f32)
    (b : Fin 2) (h : Fin 8) (q : Fin 2048) (r : Fin 128)
    (h0 : ∀ d, x0 (ix4 (0 : Fin 1) (0 : Fin 1) r d) = A0 (ix4 b h q d)) (h1 : ∀ d, x1 (ix4 (0 : Fin 1) (0 : Fin 1) r d) = A1 (ix4 b h q d))
    (h2 : ∀ k d, x2 (ix4 (0 : Fin 1) (0 : Fin 1) k d) = A2 (ix4 b h k d)) (h3 : ∀ k d, x3 (ix4 (0 : Fin 1) (0 : Fin 1) k d) = A3 (ix4 b h k d))
    (hg : ∀ k, g (ix4 (0 : Fin 1) (0 : Fin 1) r k) = Ag (ix4 (0 : Fin 1) (0 : Fin 1) q k)) (k : Fin 2048) :
    k0_pay14 (F := Ideal) (k0_pay10 (F := Ideal) x1 x2) (k0_pay11 (F := Ideal) x0 x3) g (ix2 r k) = attnImAt A0 A1 A2 A3 Ag b h q k := by
  rw [probsIm_apply]
  unfold attnImAt
  refine congrArg (fun f => softmaxRow f k) (funext fun k' => ?_)
  unfold logitIm
  rw [scoreIr_apply, scoreRi_apply]
  have e0 : brow x0 r = rowOf A0 b h q := funext h0
  have e1 : brow x1 r = rowOf A1 b h q := funext h1
  have e2 : brow x2 k' = rowOf A2 b h k' := funext (h2 k')
  have e3 : brow x3 k' = rowOf A3 b h k' := funext (h3 k')
  rw [e0, e1, e2, e3]
  show absE (_ * g (ix4 (0 : Fin 1) (0 : Fin 1) r k')) = _
  rw [hg]

/-- The stored real-part probabilities, row r. -/
theorem attnRe_row (A0 A1 A2 A3 : SQ.Idx → EReal) (Ag : SG.Idx → EReal)
    (x0 x1 : FVec Ideal S1x1x128x64 .f32) (x2 x3 : FVec Ideal S1x1x2048x64 .f32) (g : FVec Ideal S1x1x128x2048 .f32)
    (b : Fin 2) (h : Fin 8) (q : Fin 2048) (r : Fin 128)
    (h0 : ∀ d, x0 (ix4 (0 : Fin 1) (0 : Fin 1) r d) = A0 (ix4 b h q d)) (h1 : ∀ d, x1 (ix4 (0 : Fin 1) (0 : Fin 1) r d) = A1 (ix4 b h q d))
    (h2 : ∀ k d, x2 (ix4 (0 : Fin 1) (0 : Fin 1) k d) = A2 (ix4 b h k d)) (h3 : ∀ k d, x3 (ix4 (0 : Fin 1) (0 : Fin 1) k d) = A3 (ix4 b h k d))
    (hg : ∀ k, g (ix4 (0 : Fin 1) (0 : Fin 1) r k) = Ag (ix4 (0 : Fin 1) (0 : Fin 1) q k)) (u v : Fin 1) (k : Fin 2048) :
    k0_pay15 (F := Ideal) (k0_pay9 (F := Ideal) x0 x1 x2 x3) g (ix4 u v r k) = attnReAt A0 A1 A2 A3 Ag b h q k := by
  rw [storeProbsRe_apply]
  exact probsRe_row A0 A1 A2 A3 Ag x0 x1 x2 x3 g b h q r h0 h1 h2 h3 hg k

/-- The stored imaginary-part probabilities, row r. -/
theorem attnIm_row (A0 A1 A2 A3 : SQ.Idx → EReal) (Ag : SG.Idx → EReal)
    (x0 x1 : FVec Ideal S1x1x128x64 .f32) (x2 x3 : FVec Ideal S1x1x2048x64 .f32) (g : FVec Ideal S1x1x128x2048 .f32)
    (b : Fin 2) (h : Fin 8) (q : Fin 2048) (r : Fin 128)
    (h0 : ∀ d, x0 (ix4 (0 : Fin 1) (0 : Fin 1) r d) = A0 (ix4 b h q d)) (h1 : ∀ d, x1 (ix4 (0 : Fin 1) (0 : Fin 1) r d) = A1 (ix4 b h q d))
    (h2 : ∀ k d, x2 (ix4 (0 : Fin 1) (0 : Fin 1) k d) = A2 (ix4 b h k d)) (h3 : ∀ k d, x3 (ix4 (0 : Fin 1) (0 : Fin 1) k d) = A3 (ix4 b h k d))
    (hg : ∀ k, g (ix4 (0 : Fin 1) (0 : Fin 1) r k) = Ag (ix4 (0 : Fin 1) (0 : Fin 1) q k)) (u v : Fin 1) (k : Fin 2048) :
    k0_pay16 (F := Ideal) (k0_pay10 (F := Ideal) x1 x2) (k0_pay11 (F := Ideal) x0 x3) g (ix4 u v r k) = attnImAt A0 A1 A2 A3 Ag b h q k := by
  rw [storeProbsIm_apply]
  exact probsIm_row A0 A1 A2 A3 Ag x0 x1 x2 x3 g b h q r h0 h1 h2 h3 hg k

/-- The stored real-part output, row r: the probabilities' row against the value matrix of (b, h). -/
theorem outRe_row (A0 A1 A2 A3 : SQ.Idx → EReal) (Ag : SG.Idx → EReal)
    (x0 x1 : FVec Ideal S1x1x128x64 .f32) (x2 x3 : FVec Ideal S1x1x2048x64 .f32) (g : FVec Ideal S1x1x128x2048 .f32)
    (b : Fin 2) (h : Fin 8) (q : Fin 2048) (r : Fin 128)
    (h0 : ∀ d, x0 (ix4 (0 : Fin 1) (0 : Fin 1) r d) = A0 (ix4 b h q d)) (h1 : ∀ d, x1 (ix4 (0 : Fin 1) (0 : Fin 1) r d) = A1 (ix4 b h q d))
    (h2 : ∀ k d, x2 (ix4 (0 : Fin 1) (0 : Fin 1) k d) = A2 (ix4 b h k d)) (h3 : ∀ k d, x3 (ix4 (0 : Fin 1) (0 : Fin 1) k d) = A3 (ix4 b h k d))
    (hg : ∀ k, g (ix4 (0 : Fin 1) (0 : Fin 1) r k) = Ag (ix4 (0 : Fin 1) (0 : Fin 1) q k)) (A4 : SQ.Idx → EReal) (x4 : FVec Ideal S1x1x2048x64 .f32)
    (h4 : ∀ k d, x4 (ix4 (0 : Fin 1) (0 : Fin 1) k d) = A4 (ix4 b h k d)) (u v : Fin 1) (d : Fin 64) :
    k0_pay1 (F := Ideal) (k0_pay17 (F := Ideal) (k0_pay7 (F := Ideal) x4) (k0_pay9 (F := Ideal) x0 x1 x2 x3) g) (ix4 u v r d)
      = ∑ k : Fin 2048, attnReAt A0 A1 A2 A3 Ag b h q k * A4 (ix4 b h k d) := by
  rw [storeOutRe_apply]
  refine Finset.sum_congr rfl fun k _ => ?_
  rw [probsRe_row A0 A1 A2 A3 Ag x0 x1 x2 x3 g b h q r h0 h1 h2 h3 hg k, valR_apply]
  exact congrArg (attnReAt A0 A1 A2 A3 Ag b h q k * ·) (h4 k d)

/-- The stored imaginary-part output, row r. -/
theorem outIm_row (A0 A1 A2 A3 : SQ.Idx → EReal) (Ag : SG.Idx → EReal)
    (x0 x1 : FVec Ideal S1x1x128x64 .f32) (x2 x3 : FVec Ideal S1x1x2048x64 .f32) (g : FVec Ideal S1x1x128x2048 .f32)
    (b : Fin 2) (h : Fin 8) (q : Fin 2048) (r : Fin 128)
    (h0 : ∀ d, x0 (ix4 (0 : Fin 1) (0 : Fin 1) r d) = A0 (ix4 b h q d)) (h1 : ∀ d, x1 (ix4 (0 : Fin 1) (0 : Fin 1) r d) = A1 (ix4 b h q d))
    (h2 : ∀ k d, x2 (ix4 (0 : Fin 1) (0 : Fin 1) k d) = A2 (ix4 b h k d)) (h3 : ∀ k d, x3 (ix4 (0 : Fin 1) (0 : Fin 1) k d) = A3 (ix4 b h k d))
    (hg : ∀ k, g (ix4 (0 : Fin 1) (0 : Fin 1) r k) = Ag (ix4 (0 : Fin 1) (0 : Fin 1) q k)) (A5 : SQ.Idx → EReal) (x5 : FVec Ideal S1x1x2048x64 .f32)
    (h5 : ∀ k d, x5 (ix4 (0 : Fin 1) (0 : Fin 1) k d) = A5 (ix4 b h k d)) (u v : Fin 1) (d : Fin 64) :
    k0_pay2 (F := Ideal) (k0_pay8 (F := Ideal) x5) (k0_pay14 (F := Ideal) (k0_pay10 (F := Ideal) x1 x2) (k0_pay11 (F := Ideal) x0 x3) g) (ix4 u v r d)
      = ∑ k : Fin 2048, attnImAt A0 A1 A2 A3 Ag b h q k * A5 (ix4 b h k d) := by
  rw [storeOutIm_apply]
  refine Finset.sum_congr rfl fun k _ => ?_
  rw [probsIm_row A0 A1 A2 A3 Ag x0 x1 x2 x3 g b h q r h0 h1 h2 h3 hg k, valI_apply]
  exact congrArg (attnImAt A0 A1 A2 A3 Ag b h q k * ·) (h5 k d)

end Cert.CplxAttn.Body

end
-- ==== Proof.GateTerm.lean ====
/-
  The distance gate as the host computes it, read at an index.

  σ·σ is a one-element vector; it is set as the last axis of a [1, 1, 1, 1] array and then spread over [1, 1, 2048, 2048].
  Every entry of the spread array is σ(0)·σ(0), so the host's exp(dwm / spread) is, entry by entry, the specification's gate.
-/
import proofs.«157977_j84576495993326_2_alg».proof.Proof.Spec
import Idealize.ShloMosaic.Lib.Pipeline.Value

noncomputable section

namespace Cert.CplxAttn

open Idealize.ShloMosaic Idealize.ShloMosaic.ValueIdx

/-- [1, 1, 1, 1] -/
abbrev SU : Shape := ⟨4, ![1, 1, 1, 1]⟩

/-- σ·σ spread over the gate's shape is σ(0)·σ(0) everywhere. -/
theorem sigmaSq_apply (s : S1.Idx → EReal) (h1 : S1.BroadcastsInDim SU (![3] : Fin 1 → Fin SU.rank))
    (h2 : SU.BroadcastsInDim SG (![0, 1, 2, 3] : Fin 4 → Fin SG.rank)) (i : SG.Idx) :
    broadcastInDim SG ![0, 1, 2, 3] h2 (broadcastInDim SU ![3] h1 (mulf (F := Ideal) (φ := .f32) s s)) i
      = s (ix1 (0 : Fin 1)) * s (ix1 (0 : Fin 1)) :=
  (broadcastInDim_apply _ h2 _ i (ix4 (0 : Fin 1) (0 : Fin 1) (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl])).trans
  (broadcastInDim_apply _ h1 _ _ (ix1 (0 : Fin 1)) (fun a => match a with
    | ⟨0, _⟩ => by show 0 = if (1 : Nat) = 1 then 0 else _; rw [if_pos rfl]))

/-- The host's gate term is the specification's gate array. -/
theorem hostGate_eq (w : SG.Idx → EReal) (s : S1.Idx → EReal) (h1 : S1.BroadcastsInDim SU (![3] : Fin 1 → Fin SU.rank))
    (h2 : SU.BroadcastsInDim SG (![0, 1, 2, 3] : Fin 4 → Fin SG.rank)) :
    Host.exp (F := Ideal) (φ := .f32) (Host.divf (F := Ideal) (φ := .f32) w
      (broadcastInDim SG ![0, 1, 2, 3] h2 (broadcastInDim SU ![3] h1 (mulf (F := Ideal) (φ := .f32) s s)))) = gateOf w s := by
  funext i
  show Ideal.exp (Ideal.div (w i) (broadcastInDim SG ![0, 1, 2, 3] h2 (broadcastInDim SU ![3] h1 (mulf (F := Ideal) (φ := .f32) s s)) i)) = _
  rw [sigmaSq_apply]
  rfl

end Cert.CplxAttn

end
-- ==== Proof.Final.lean ====
/-
  From blocks to arrays: what the kernel's four result arrays hold after the run.

  The grid has 2·8·16 points; the point with coordinates (b, h, s) stages rows 128·s … 128·s + 127 of (b, h) of the two
  query arrays, the whole [2048, 64] matrices of (b, h) of the key and value arrays, and the whole gate, and writes back
  block (b, h, s) of each result. Row r of what it writes is row (b, h, 128·s + r) of the specification's array, and the
  blocks of the 256 points cover each result array, so each result array ends holding the specification's array of the
  arguments — the gate being the host's exp(dwm / (σ·σ)), computed before the region.
-/
import proofs.«157977_j84576495993326_2_alg».proof.Proof.Gen.KernelIdeal.Value
import proofs.«157977_j84576495993326_2_alg».proof.Proof.BodyOut
import proofs.«157977_j84576495993326_2_alg».proof.Proof.Blocks
import proofs.«157977_j84576495993326_2_alg».proof.Proof.GateTerm
import Idealize.ShloMosaic.Lib.Pipeline.Value
import Idealize.ShloMosaic.Lib.StableHlo.Run

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)
open Cert.CplxAttn

variable (m : (ℓ : Loc nD τ sig) → Buf (Elt Ideal) ℓ) (ρ : Dev nD → PrngReg)

/-! ## The index maps -/

/-- The printed index maps, decided once over the 256 grid points: the query, probability and output windows move
    together — block (b, h, s, 0) at the point with coordinates (b, h, s) —, the key and value windows take block
    (b, h, 0, 0), the gate window stays at block 0, and the body's gate band starts at row 128·s. -/
theorem idx_facts : ∀ t : Fin cfg0.N,
    (win0_9.index t (0 : Fin 4) = t.val / 128 ∧ win0_9.index t (1 : Fin 4) = t.val / 16 % 8 ∧ win0_9.index t (2 : Fin 4) = t.val % 16
      ∧ win0_9.index t (3 : Fin 4) = 0)
    ∧ (∀ a : Fin 4, win0_0.index t a = win0_9.index t a) ∧ (∀ a : Fin 4, win0_1.index t a = win0_9.index t a)
    ∧ (∀ a : Fin 4, win0_7.index t a = win0_9.index t a) ∧ (∀ a : Fin 4, win0_8.index t a = win0_9.index t a)
    ∧ (∀ a : Fin 4, win0_10.index t a = win0_9.index t a)
    ∧ (win0_2.index t (0 : Fin 4) = win0_9.index t (0 : Fin 4) ∧ win0_2.index t (1 : Fin 4) = win0_9.index t (1 : Fin 4)
      ∧ win0_2.index t (2 : Fin 4) = 0 ∧ win0_2.index t (3 : Fin 4) = 0)
    ∧ (win0_3.index t (0 : Fin 4) = win0_9.index t (0 : Fin 4) ∧ win0_3.index t (1 : Fin 4) = win0_9.index t (1 : Fin 4)
      ∧ win0_3.index t (2 : Fin 4) = 0 ∧ win0_3.index t (3 : Fin 4) = 0)
    ∧ (win0_4.index t (0 : Fin 4) = win0_9.index t (0 : Fin 4) ∧ win0_4.index t (1 : Fin 4) = win0_9.index t (1 : Fin 4)
      ∧ win0_4.index t (2 : Fin 4) = 0 ∧ win0_4.index t (3 : Fin 4) = 0)
    ∧ (win0_5.index t (0 : Fin 4) = win0_9.index t (0 : Fin 4) ∧ win0_5.index t (1 : Fin 4) = win0_9.index t (1 : Fin 4)
      ∧ win0_5.index t (2 : Fin 4) = 0 ∧ win0_5.index t (3 : Fin 4) = 0)
    ∧ (∀ a : Fin 4, win0_6.index t a = 0)
    ∧ (k0_off1 (grid0.coords t) (0 : Fin 4) = 0 ∧ k0_off1 (grid0.coords t) (1 : Fin 4) = 0
      ∧ k0_off1 (grid0.coords t) (2 : Fin 4) = win0_9.index t (2 : Fin 4) * 128 ∧ k0_off1 (grid0.coords t) (3 : Fin 4) = 0) :=
  (by decide +kernel : ∀ t : Fin grid0.N, _)

/-! ## The staged blocks, read at a row -/

/-- Row r of the window-0 block at point t is row (b, h, q) of its array, for the point's (b, h) and q = 128·s + r. -/
theorem readQ0 (c : Dev nD) (t : Fin cfg0.N) (r : Fin 128) (d : Fin 64) (b : Fin 2) (h : Fin 8) (q : Fin 2048)
    (hb : win0_9.index t (0 : Fin 4) = b.val) (hh : win0_9.index t (1 : Fin 4) = h.val)
    (hq : win0_9.index t (2 : Fin 4) * 128 + r.val = q.val) :
    (iblk m c 0 t : Vec Ideal S1x1x128x64 .f32) (ix4 (0 : Fin 1) (0 : Fin 1) r d) = V m c main_arg0 (ix4 b h q d) := by
  obtain ⟨⟨-, -, -, e93⟩, e0, e1, -⟩ := idx_facts t
  have f0 := e0 (0 : Fin 4); have f1 := e0 (1 : Fin 4); have f2 := e0 (2 : Fin 4); have f3 := e0 (3 : Fin 4)
  unfold iblk
  rw [View.read_apply]
  show V m c main_arg0 _ = V m c main_arg0 _
  congr 1
  funext a
  apply Fin.ext
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 128 + 1 * r.val = q.val; omega
  | ⟨3, _⟩ => show win0_0.index t (3 : Fin 4) * 64 + 1 * d.val = d.val; omega

/-- Row r of the window-1 block at point t is row (b, h, q) of its array, for the point's (b, h) and q = 128·s + r. -/
theorem readQ1 (c : Dev nD) (t : Fin cfg0.N) (r : Fin 128) (d : Fin 64) (b : Fin 2) (h : Fin 8) (q : Fin 2048)
    (hb : win0_9.index t (0 : Fin 4) = b.val) (hh : win0_9.index t (1 : Fin 4) = h.val)
    (hq : win0_9.index t (2 : Fin 4) * 128 + r.val = q.val) :
    (iblk m c 1 t : Vec Ideal S1x1x128x64 .f32) (ix4 (0 : Fin 1) (0 : Fin 1) r d) = V m c main_arg1 (ix4 b h q d) := by
  obtain ⟨⟨-, -, -, e93⟩, e0, e1, -⟩ := idx_facts t
  have f0 := e1 (0 : Fin 4); have f1 := e1 (1 : Fin 4); have f2 := e1 (2 : Fin 4); have f3 := e1 (3 : Fin 4)
  unfold iblk
  rw [View.read_apply]
  show V m c main_arg1 _ = V m c main_arg1 _
  congr 1
  funext a
  apply Fin.ext
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 128 + 1 * r.val = q.val; omega
  | ⟨3, _⟩ => show win0_1.index t (3 : Fin 4) * 64 + 1 * d.val = d.val; omega

/-- The window-2 block at point t is the [2048, 64] matrix of the point's (b, h) in its array. -/
theorem readK2 (c : Dev nD) (t : Fin cfg0.N) (k : Fin 2048) (d : Fin 64) (b : Fin 2) (h : Fin 8)
    (hb : win0_9.index t (0 : Fin 4) = b.val) (hh : win0_9.index t (1 : Fin 4) = h.val) :
    (iblk m c 2 t : Vec Ideal S1x1x2048x64 .f32) (ix4 (0 : Fin 1) (0 : Fin 1) k d) = V m c main_arg2 (ix4 b h k d) := by
  obtain ⟨-, -, -, -, -, -, e, -⟩ := idx_facts t
  obtain ⟨f0, f1, f2, f3⟩ := e
  unfold iblk
  rw [View.read_apply]
  show V m c main_arg2 _ = V m c main_arg2 _
  congr 1
  funext a
  apply Fin.ext
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 64 + 1 * d.val = d.val; omega

/-- The window-3 block at point t is the [2048, 64] matrix of the point's (b, h) in its array. -/
theorem readK3 (c : Dev nD) (t : Fin cfg0.N) (k : Fin 2048) (d : Fin 64) (b : Fin 2) (h : Fin 8)
    (hb : win0_9.index t (0 : Fin 4) = b.val) (hh : win0_9.index t (1 : Fin 4) = h.val) :
    (iblk m c 3 t : Vec Ideal S1x1x2048x64 .f32) (ix4 (0 : Fin 1) (0 : Fin 1) k d) = V m c main_arg3 (ix4 b h k d) := by
  obtain ⟨-, -, -, -, -, -, -, e, -⟩ := idx_facts t
  obtain ⟨f0, f1, f2, f3⟩ := e
  unfold iblk
  rw [View.read_apply]
  show V m c main_arg3 _ = V m c main_arg3 _
  congr 1
  funext a
  apply Fin.ext
  match a with
  | ⟨0, _⟩ => show win0_3.index t (0 : Fin 4) * 1 + 1 * 0 = b.val; omega
  | ⟨1, _⟩ => show win0_3.index t (1 : Fin 4) * 1 + 1 * 0 = h.val; omega
  | ⟨2, _⟩ => show win0_3.index t (2 : Fin 4) * 2048 + 1 * k.val = k.val; omega
  | ⟨3, _⟩ => show win0_3.index t (3 : Fin 4) * 64 + 1 * d.val = d.val; omega

/-- The window-4 block at point t is the [2048, 64] matrix of the point's (b, h) in its array. -/
theorem readK4 (c : Dev nD) (t : Fin cfg0.N) (k : Fin 2048) (d : Fin 64) (b : Fin 2) (h : Fin 8)
    (hb : win0_9.index t (0 : Fin 4) = b.val) (hh : win0_9.index t (1 : Fin 4) = h.val) :
    (iblk m c 4 t : Vec Ideal S1x1x2048x64 .f32) (ix4 (0 : Fin 1) (0 : Fin 1) k d) = V m c main_arg4 (ix4 b h k d) := by
  obtain ⟨-, -, -, -, -, -, -, -, e, -⟩ := idx_facts t
  obtain ⟨f0, f1, f2, f3⟩ := e
  unfold iblk
  rw [View.read_apply]
  show V m c main_arg4 _ = V m c main_arg4 _
  congr 1
  funext a
  apply Fin.ext
  match a with
  | ⟨0, _⟩ => show win0_4.index t (0 : Fin 4) * 1 + 1 * 0 = b.val; omega
  | ⟨1, _⟩ => show win0_4.index t (1 : Fin 4) * 1 + 1 * 0 = h.val; omega
  | ⟨2, _⟩ => show win0_4.index t (2 : Fin 4) * 2048 + 1 * k.val = k.val; omega
  | ⟨3, _⟩ => show win0_4.index t (3 : Fin 4) * 64 + 1 * d.val = d.val; omega

/-- The window-5 block at point t is the [2048, 64] matrix of the point's (b, h) in its array. -/
theorem readK5 (c : Dev nD) (t : Fin cfg0.N) (k : Fin 2048) (d : Fin 64) (b : Fin 2) (h : Fin 8)
    (hb : win0_9.index t (0 : Fin 4) = b.val) (hh : win0_9.index t (1 : Fin 4) = h.val) :
    (iblk m c 5 t : Vec Ideal S1x1x2048x64 .f32) (ix4 (0 : Fin 1) (0 : Fin 1) k d) = V m c main_arg5 (ix4 b h k d) := by
  obtain ⟨-, -, -, -, -, -, -, -, -, e, -⟩ := idx_facts t
  obtain ⟨f0, f1, f2, f3⟩ := e
  unfold iblk
  rw [View.read_apply]
  show V m c main_arg5 _ = V m c main_arg5 _
  congr 1
  funext a
  apply Fin.ext
  match a with
  | ⟨0, _⟩ => show win0_5.index t (0 : Fin 4) * 1 + 1 * 0 = b.val; omega
  | ⟨1, _⟩ => show win0_5.index t (1 : Fin 4) * 1 + 1 * 0 = h.val; omega
  | ⟨2, _⟩ => show win0_5.index t (2 : Fin 4) * 2048 + 1 * k.val = k.val; omega
  | ⟨3, _⟩ => show win0_5.index t (3 : Fin 4) * 64 + 1 * d.val = d.val; omega

/-- Row r of the band of the gate the body loads at point t is row 128·s + r of the gate array. -/
theorem readG (c : Dev nD) (t : Fin cfg0.N) (r : Fin 128) (k : Fin 2048) (q : Fin 2048)
    (hq : win0_9.index t (2 : Fin 4) * 128 + r.val = q.val) :
    Body.gateBand (grid0.coords t) (iblk m c 6 t : Vec Ideal S1x1x2048x2048 .f32) (ix4 (0 : Fin 1) (0 : Fin 1) r k)
      = V m c main_v4 (ix4 (0 : Fin 1) (0 : Fin 1) q k) := by
  obtain ⟨-, -, -, -, -, -, -, -, -, -, e6, o0, o1, o2, o3⟩ := idx_facts t
  have f0 := e6 (0 : Fin 4); have f1 := e6 (1 : Fin 4); have f2 := e6 (2 : Fin 4); have f3 := e6 (3 : Fin 4)
  unfold Body.gateBand iblk
  show View.read (Elt Ideal) ((cfg0.win 6).blk t).view (V m c main_v4)
      ((Rect.unit (s := S1x1x2048x2048) (k0_off1 (grid0.coords t)) S1x1x128x2048.size (k0_off1_inb (grid0.coords t))).emb
        (ix4 (0 : Fin 1) (0 : Fin 1) r k)) = _
  rw [View.read_apply]
  refine congrArg (V m c main_v4) (funext fun a => Fin.ext ?_)
  match a with
  | ⟨0, _⟩ => show win0_6.index t (0 : Fin 4) * 1 + 1 * (k0_off1 (grid0.coords t) (0 : Fin 4) + 1 * 0) = 0; omega
  | ⟨1, _⟩ => show win0_6.index t (1 : Fin 4) * 1 + 1 * (k0_off1 (grid0.coords t) (1 : Fin 4) + 1 * 0) = 0; omega
  | ⟨2, _⟩ => show win0_6.index t (2 : Fin 4) * 2048 + 1 * (k0_off1 (grid0.coords t) (2 : Fin 4) + 1 * r.val) = q.val; omega
  | ⟨3, _⟩ => show win0_6.index t (3 : Fin 4) * 2048 + 1 * (k0_off1 (grid0.coords t) (3 : Fin 4) + 1 * k.val) = k.val; omega

/-! ## Output window 9 -/

/-- What point t writes back to window 9's array is block t of the specification's array, of the arrays as the region finds them. -/
theorem flushed9_eq (c : Dev nD) (t : Fin cfg0.N) :
    (dats m 0 c).flushed 9 t = ((cfg0.win 9).blk t).view.read (Elt Ideal) (attnRe (V m c main_arg0) (V m c main_arg1) (V m c main_arg2) (V m c main_arg3) (V m c main_v4)) := by
  rw [Cert.KernelIdeal.Value.flushed9_A, Body.out9_eq]
  have hN : cfg0.N = 256 := N_0
  have htl := t.isLt
  obtain ⟨⟨c0, c1, c2, c3⟩, -⟩ := idx_facts t
  have g0 : win0_9.index t (0 : Fin 4) = win0_9.index t (0 : Fin 4) := rfl
  have g1 : win0_9.index t (1 : Fin 4) = win0_9.index t (1 : Fin 4) := rfl
  have g2 : win0_9.index t (2 : Fin 4) = win0_9.index t (2 : Fin 4) := rfl
  have g3 : win0_9.index t (3 : Fin 4) = win0_9.index t (3 : Fin 4) := rfl
  refine funext fun (y : S1x1x128x2048.Idx) => ?_
  obtain ⟨u, v, r, k, rfl⟩ : ∃ (u v : Fin 1) (r : Fin 128) (k : Fin 2048), y = ix4 u v r k := ⟨y 0, y 1, y 2, y 3, eq_ix4 y⟩
  have hr := r.isLt
  let b : Fin 2 := ⟨win0_9.index t (0 : Fin 4), by omega⟩
  let h : Fin 8 := ⟨win0_9.index t (1 : Fin 4), by omega⟩
  let q : Fin 2048 := ⟨win0_9.index t (2 : Fin 4) * 128 + r.val, by omega⟩
  have hb : win0_9.index t (0 : Fin 4) = b.val := rfl
  have hh : win0_9.index t (1 : Fin 4) = h.val := rfl
  have hq : win0_9.index t (2 : Fin 4) * 128 + r.val = q.val := rfl
  have hu : u.val = 0 := by omega
  have hv : v.val = 0 := by omega
  have hi : ((cfg0.win 9).blk t).view.emb (ix4 u v r k) = ix4 b h q k := funext fun a => Fin.ext (by
    match a with
    | ⟨0, _⟩ => show win0_9.index t (0 : Fin 4) * 1 + 1 * u.val = b.val; omega
    | ⟨1, _⟩ => show win0_9.index t (1 : Fin 4) * 1 + 1 * v.val = h.val; omega
    | ⟨2, _⟩ => show win0_9.index t (2 : Fin 4) * 128 + 1 * r.val = q.val; omega
    | ⟨3, _⟩ => show win0_9.index t (3 : Fin 4) * 2048 + 1 * k.val = k.val; omega)
  rw [View.read_apply, hi]
  exact Body.attnRe_row (V m c main_arg0) (V m c main_arg1) (V m c main_arg2) (V m c main_arg3) (V m c main_v4)
    (iblk m c 0 t) (iblk m c 1 t) (iblk m c 2 t) (iblk m c 3 t) (Body.gateBand (grid0.coords t) (iblk m c 6 t)) b h q r (fun d => readQ0 m c t r d b h q hb hh hq) (fun d => readQ1 m c t r d b h q hb hh hq)
    (fun k d => readK2 m c t k d b h hb hh) (fun k d => readK3 m c t k d b h hb hh) (fun k => readG m c t r k q hq) u v k

/-- Every index of window 9's array lies in the block of the point (b, h, row / 128). -/
theorem cover9 (i : S2x8x2048x2048.Idx) : ∃ t : Fin cfg0.N, (cfg0.win 9).flush t = true ∧ i ∈ ((cfg0.win 9).blk t).view.set := by
  have hN : cfg0.N = 256 := N_0
  have h0 : (i 0).val < 2 := (i 0).isLt
  have h1 : (i 1).val < 8 := (i 1).isLt
  have h2 : (i 2).val < 2048 := (i 2).isLt
  have h3 : (i 3).val < 2048 := (i 3).isLt
  let t : Fin cfg0.N := ⟨(i 0).val * 128 + (i 1).val * 16 + (i 2).val / 128, by omega⟩
  have ht : t.val = (i 0).val * 128 + (i 1).val * 16 + (i 2).val / 128 := rfl
  obtain ⟨⟨c0, c1, c2, c3⟩, -⟩ := idx_facts t
  have g0 : win0_9.index t (0 : Fin 4) = win0_9.index t (0 : Fin 4) := rfl
  have g1 : win0_9.index t (1 : Fin 4) = win0_9.index t (1 : Fin 4) := rfl
  have g2 : win0_9.index t (2 : Fin 4) = win0_9.index t (2 : Fin 4) := rfl
  have g3 : win0_9.index t (3 : Fin 4) = win0_9.index t (3 : Fin 4) := rfl
  refine ⟨t, flush0_9 t, ?_⟩
  show i ∈ ((View.whole main_v5_2).slice (win0_9.rect t)).set
  rw [View.set_slice_whole, Rect.mem_set_unit]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 1 ≤ (i 1).val ∧ (i 1).val < win0_9.index t (1 : Fin 4) * 1 + 1; omega
  | ⟨2, _⟩ => show win0_9.index t (2 : Fin 4) * 128 ≤ (i 2).val ∧ (i 2).val < win0_9.index t (2 : Fin 4) * 128 + 128; omega
  | ⟨3, _⟩ => show win0_9.index t (3 : Fin 4) * 2048 ≤ (i 3).val ∧ (i 3).val < win0_9.index t (3 : Fin 4) * 2048 + 2048; omega

/-- So window 9's array ends holding the specification's array. -/
theorem final9 (c : Dev nD) : (dats m 0 c).arrAt 9 cfg0.N = attnRe (V m c main_arg0) (V m c main_arg1) (V m c main_arg2) (V m c main_arg3) (V m c main_v4) :=
  (dats m 0 c).arrAt_eq_of_cover 9 _ (fun t _ => flushed9_eq m c t) (cover9)

/-! ## Output window 10 -/

/-- What point t writes back to window 10's array is block t of the specification's array, of the arrays as the region finds them. -/
theorem flushed10_eq (c : Dev nD) (t : Fin cfg0.N) :
    (dats m 0 c).flushed 10 t = ((cfg0.win 10).blk t).view.read (Elt Ideal) (attnIm (V m c main_arg0) (V m c main_arg1) (V m c main_arg2) (V m c main_arg3) (V m c main_v4)) := by
  rw [Cert.KernelIdeal.Value.flushed10_A, Body.out10_eq]
  have hN : cfg0.N = 256 := N_0
  have htl := t.isLt
  obtain ⟨⟨c0, c1, c2, c3⟩, -⟩ := idx_facts t
  obtain ⟨-, -, -, -, -, e, -⟩ := idx_facts t
  have g0 := e (0 : Fin 4); have g1 := e (1 : Fin 4); have g2 := e (2 : Fin 4); have g3 := e (3 : Fin 4)
  refine funext fun (y : S1x1x128x2048.Idx) => ?_
  obtain ⟨u, v, r, k, rfl⟩ : ∃ (u v : Fin 1) (r : Fin 128) (k : Fin 2048), y = ix4 u v r k := ⟨y 0, y 1, y 2, y 3, eq_ix4 y⟩
  have hr := r.isLt
  let b : Fin 2 := ⟨win0_9.index t (0 : Fin 4), by omega⟩
  let h : Fin 8 := ⟨win0_9.index t (1 : Fin 4), by omega⟩
  let q : Fin 2048 := ⟨win0_9.index t (2 : Fin 4) * 128 + r.val, by omega⟩
  have hb : win0_9.index t (0 : Fin 4) = b.val := rfl
  have hh : win0_9.index t (1 : Fin 4) = h.val := rfl
  have hq : win0_9.index t (2 : Fin 4) * 128 + r.val = q.val := rfl
  have hu : u.val = 0 := by omega
  have hv : v.val = 0 := by omega
  have hi : ((cfg0.win 10).blk t).view.emb (ix4 u v r k) = ix4 b h q k := funext fun a => Fin.ext (by
    match a with
    | ⟨0, _⟩ => show win0_10.index t (0 : Fin 4) * 1 + 1 * u.val = b.val; omega
    | ⟨1, _⟩ => show win0_10.index t (1 : Fin 4) * 1 + 1 * v.val = h.val; omega
    | ⟨2, _⟩ => show win0_10.index t (2 : Fin 4) * 128 + 1 * r.val = q.val; omega
    | ⟨3, _⟩ => show win0_10.index t (3 : Fin 4) * 2048 + 1 * k.val = k.val; omega)
  rw [View.read_apply, hi]
  exact Body.attnIm_row (V m c main_arg0) (V m c main_arg1) (V m c main_arg2) (V m c main_arg3) (V m c main_v4)
    (iblk m c 0 t) (iblk m c 1 t) (iblk m c 2 t) (iblk m c 3 t) (Body.gateBand (grid0.coords t) (iblk m c 6 t)) b h q r (fun d => readQ0 m c t r d b h q hb hh hq) (fun d => readQ1 m c t r d b h q hb hh hq)
    (fun k d => readK2 m c t k d b h hb hh) (fun k d => readK3 m c t k d b h hb hh) (fun k => readG m c t r k q hq) u v k

/-- Every index of window 10's array lies in the block of the point (b, h, row / 128). -/
theorem cover10 (i : S2x8x2048x2048.Idx) : ∃ t : Fin cfg0.N, (cfg0.win 10).flush t = true ∧ i ∈ ((cfg0.win 10).blk t).view.set := by
  have hN : cfg0.N = 256 := N_0
  have h0 : (i 0).val < 2 := (i 0).isLt
  have h1 : (i 1).val < 8 := (i 1).isLt
  have h2 : (i 2).val < 2048 := (i 2).isLt
  have h3 : (i 3).val < 2048 := (i 3).isLt
  let t : Fin cfg0.N := ⟨(i 0).val * 128 + (i 1).val * 16 + (i 2).val / 128, by omega⟩
  have ht : t.val = (i 0).val * 128 + (i 1).val * 16 + (i 2).val / 128 := rfl
  obtain ⟨⟨c0, c1, c2, c3⟩, -⟩ := idx_facts t
  obtain ⟨-, -, -, -, -, e, -⟩ := idx_facts t
  have g0 := e (0 : Fin 4); have g1 := e (1 : Fin 4); have g2 := e (2 : Fin 4); have g3 := e (3 : Fin 4)
  refine ⟨t, flush0_10 t, ?_⟩
  show i ∈ ((View.whole main_v5_3).slice (win0_10.rect t)).set
  rw [View.set_slice_whole, Rect.mem_set_unit]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 1 ≤ (i 1).val ∧ (i 1).val < win0_10.index t (1 : Fin 4) * 1 + 1; omega
  | ⟨2, _⟩ => show win0_10.index t (2 : Fin 4) * 128 ≤ (i 2).val ∧ (i 2).val < win0_10.index t (2 : Fin 4) * 128 + 128; omega
  | ⟨3, _⟩ => show win0_10.index t (3 : Fin 4) * 2048 ≤ (i 3).val ∧ (i 3).val < win0_10.index t (3 : Fin 4) * 2048 + 2048; omega

/-- So window 10's array ends holding the specification's array. -/
theorem final10 (c : Dev nD) : (dats m 0 c).arrAt 10 cfg0.N = attnIm (V m c main_arg0) (V m c main_arg1) (V m c main_arg2) (V m c main_arg3) (V m c main_v4) :=
  (dats m 0 c).arrAt_eq_of_cover 10 _ (fun t _ => flushed10_eq m c t) (cover10)

/-! ## Output window 7 -/

/-- What point t writes back to window 7's array is block t of the specification's array, of the arrays as the region finds them. -/
theorem flushed7_eq (c : Dev nD) (t : Fin cfg0.N) :
    (dats m 0 c).flushed 7 t = ((cfg0.win 7).blk t).view.read (Elt Ideal) (outRe (V m c main_arg0) (V m c main_arg1) (V m c main_arg2) (V m c main_arg3) (V m c main_arg4) (V m c main_v4)) := by
  rw [Cert.KernelIdeal.Value.flushed7_A, Body.out7_eq]
  have hN : cfg0.N = 256 := N_0
  have htl := t.isLt
  obtain ⟨⟨c0, c1, c2, c3⟩, -⟩ := idx_facts t
  obtain ⟨-, -, -, e, -⟩ := idx_facts t
  have g0 := e (0 : Fin 4); have g1 := e (1 : Fin 4); have g2 := e (2 : Fin 4); have g3 := e (3 : Fin 4)
  refine funext fun (y : S1x1x128x64.Idx) => ?_
  obtain ⟨u, v, r, d, rfl⟩ : ∃ (u v : Fin 1) (r : Fin 128) (d : Fin 64), y = ix4 u v r d := ⟨y 0, y 1, y 2, y 3, eq_ix4 y⟩
  have hr := r.isLt
  let b : Fin 2 := ⟨win0_9.index t (0 : Fin 4), by omega⟩
  let h : Fin 8 := ⟨win0_9.index t (1 : Fin 4), by omega⟩
  let q : Fin 2048 := ⟨win0_9.index t (2 : Fin 4) * 128 + r.val, by omega⟩
  have hb : win0_9.index t (0 : Fin 4) = b.val := rfl
  have hh : win0_9.index t (1 : Fin 4) = h.val := rfl
  have hq : win0_9.index t (2 : Fin 4) * 128 + r.val = q.val := rfl
  have hu : u.val = 0 := by omega
  have hv : v.val = 0 := by omega
  have hi : ((cfg0.win 7).blk t).view.emb (ix4 u v r d) = ix4 b h q d := funext fun a => Fin.ext (by
    match a with
    | ⟨0, _⟩ => show win0_7.index t (0 : Fin 4) * 1 + 1 * u.val = b.val; omega
    | ⟨1, _⟩ => show win0_7.index t (1 : Fin 4) * 1 + 1 * v.val = h.val; omega
    | ⟨2, _⟩ => show win0_7.index t (2 : Fin 4) * 128 + 1 * r.val = q.val; omega
    | ⟨3, _⟩ => show win0_7.index t (3 : Fin 4) * 64 + 1 * d.val = d.val; omega)
  rw [View.read_apply, hi]
  exact Body.outRe_row (V m c main_arg0) (V m c main_arg1) (V m c main_arg2) (V m c main_arg3) (V m c main_v4)
    (iblk m c 0 t) (iblk m c 1 t) (iblk m c 2 t) (iblk m c 3 t) (Body.gateBand (grid0.coords t) (iblk m c 6 t)) b h q r (fun d => readQ0 m c t r d b h q hb hh hq) (fun d => readQ1 m c t r d b h q hb hh hq)
    (fun k d => readK2 m c t k d b h hb hh) (fun k d => readK3 m c t k d b h hb hh) (fun k => readG m c t r k q hq)
    (V m c main_arg4) (iblk m c 4 t) (fun k d => readK4 m c t k d b h hb hh) u v d

/-- Every index of window 7's array lies in the block of the point (b, h, row / 128). -/
theorem cover7 (i : S2x8x2048x64.Idx) : ∃ t : Fin cfg0.N, (cfg0.win 7).flush t = true ∧ i ∈ ((cfg0.win 7).blk t).view.set := by
  have hN : cfg0.N = 256 := N_0
  have h0 : (i 0).val < 2 := (i 0).isLt
  have h1 : (i 1).val < 8 := (i 1).isLt
  have h2 : (i 2).val < 2048 := (i 2).isLt
  have h3 : (i 3).val < 64 := (i 3).isLt
  let t : Fin cfg0.N := ⟨(i 0).val * 128 + (i 1).val * 16 + (i 2).val / 128, by omega⟩
  have ht : t.val = (i 0).val * 128 + (i 1).val * 16 + (i 2).val / 128 := rfl
  obtain ⟨⟨c0, c1, c2, c3⟩, -⟩ := idx_facts t
  obtain ⟨-, -, -, e, -⟩ := idx_facts t
  have g0 := e (0 : Fin 4); have g1 := e (1 : Fin 4); have g2 := e (2 : Fin 4); have g3 := e (3 : Fin 4)
  refine ⟨t, flush0_7 t, ?_⟩
  show i ∈ ((View.whole main_v5_0).slice (win0_7.rect t)).set
  rw [View.set_slice_whole, Rect.mem_set_unit]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 1 ≤ (i 1).val ∧ (i 1).val < win0_7.index t (1 : Fin 4) * 1 + 1; omega
  | ⟨2, _⟩ => show win0_7.index t (2 : Fin 4) * 128 ≤ (i 2).val ∧ (i 2).val < win0_7.index t (2 : Fin 4) * 128 + 128; omega
  | ⟨3, _⟩ => show win0_7.index t (3 : Fin 4) * 64 ≤ (i 3).val ∧ (i 3).val < win0_7.index t (3 : Fin 4) * 64 + 64; omega

/-- So window 7's array ends holding the specification's array. -/
theorem final7 (c : Dev nD) : (dats m 0 c).arrAt 7 cfg0.N = outRe (V m c main_arg0) (V m c main_arg1) (V m c main_arg2) (V m c main_arg3) (V m c main_arg4) (V m c main_v4) :=
  (dats m 0 c).arrAt_eq_of_cover 7 _ (fun t _ => flushed7_eq m c t) (cover7)

/-! ## Output window 8 -/

/-- What point t writes back to window 8's array is block t of the specification's array, of the arrays as the region finds them. -/
theorem flushed8_eq (c : Dev nD) (t : Fin cfg0.N) :
    (dats m 0 c).flushed 8 t = ((cfg0.win 8).blk t).view.read (Elt Ideal) (outIm (V m c main_arg0) (V m c main_arg1) (V m c main_arg2) (V m c main_arg3) (V m c main_arg5) (V m c main_v4)) := by
  rw [Cert.KernelIdeal.Value.flushed8_A, Body.out8_eq]
  have hN : cfg0.N = 256 := N_0
  have htl := t.isLt
  obtain ⟨⟨c0, c1, c2, c3⟩, -⟩ := idx_facts t
  obtain ⟨-, -, -, -, e, -⟩ := idx_facts t
  have g0 := e (0 : Fin 4); have g1 := e (1 : Fin 4); have g2 := e (2 : Fin 4); have g3 := e (3 : Fin 4)
  refine funext fun (y : S1x1x128x64.Idx) => ?_
  obtain ⟨u, v, r, d, rfl⟩ : ∃ (u v : Fin 1) (r : Fin 128) (d : Fin 64), y = ix4 u v r d := ⟨y 0, y 1, y 2, y 3, eq_ix4 y⟩
  have hr := r.isLt
  let b : Fin 2 := ⟨win0_9.index t (0 : Fin 4), by omega⟩
  let h : Fin 8 := ⟨win0_9.index t (1 : Fin 4), by omega⟩
  let q : Fin 2048 := ⟨win0_9.index t (2 : Fin 4) * 128 + r.val, by omega⟩
  have hb : win0_9.index t (0 : Fin 4) = b.val := rfl
  have hh : win0_9.index t (1 : Fin 4) = h.val := rfl
  have hq : win0_9.index t (2 : Fin 4) * 128 + r.val = q.val := rfl
  have hu : u.val = 0 := by omega
  have hv : v.val = 0 := by omega
  have hi : ((cfg0.win 8).blk t).view.emb (ix4 u v r d) = ix4 b h q d := funext fun a => Fin.ext (by
    match a with
    | ⟨0, _⟩ => show win0_8.index t (0 : Fin 4) * 1 + 1 * u.val = b.val; omega
    | ⟨1, _⟩ => show win0_8.index t (1 : Fin 4) * 1 + 1 * v.val = h.val; omega
    | ⟨2, _⟩ => show win0_8.index t (2 : Fin 4) * 128 + 1 * r.val = q.val; omega
    | ⟨3, _⟩ => show win0_8.index t (3 : Fin 4) * 64 + 1 * d.val = d.val; omega)
  rw [View.read_apply, hi]
  exact Body.outIm_row (V m c main_arg0) (V m c main_arg1) (V m c main_arg2) (V m c main_arg3) (V m c main_v4)
    (iblk m c 0 t) (iblk m c 1 t) (iblk m c 2 t) (iblk m c 3 t) (Body.gateBand (grid0.coords t) (iblk m c 6 t)) b h q r (fun d => readQ0 m c t r d b h q hb hh hq) (fun d => readQ1 m c t r d b h q hb hh hq)
    (fun k d => readK2 m c t k d b h hb hh) (fun k d => readK3 m c t k d b h hb hh) (fun k => readG m c t r k q hq)
    (V m c main_arg5) (iblk m c 5 t) (fun k d => readK5 m c t k d b h hb hh) u v d

/-- Every index of window 8's array lies in the block of the point (b, h, row / 128). -/
theorem cover8 (i : S2x8x2048x64.Idx) : ∃ t : Fin cfg0.N, (cfg0.win 8).flush t = true ∧ i ∈ ((cfg0.win 8).blk t).view.set := by
  have hN : cfg0.N = 256 := N_0
  have h0 : (i 0).val < 2 := (i 0).isLt
  have h1 : (i 1).val < 8 := (i 1).isLt
  have h2 : (i 2).val < 2048 := (i 2).isLt
  have h3 : (i 3).val < 64 := (i 3).isLt
  let t : Fin cfg0.N := ⟨(i 0).val * 128 + (i 1).val * 16 + (i 2).val / 128, by omega⟩
  have ht : t.val = (i 0).val * 128 + (i 1).val * 16 + (i 2).val / 128 := rfl
  obtain ⟨⟨c0, c1, c2, c3⟩, -⟩ := idx_facts t
  obtain ⟨-, -, -, -, e, -⟩ := idx_facts t
  have g0 := e (0 : Fin 4); have g1 := e (1 : Fin 4); have g2 := e (2 : Fin 4); have g3 := e (3 : Fin 4)
  refine ⟨t, flush0_8 t, ?_⟩
  show i ∈ ((View.whole main_v5_1).slice (win0_8.rect t)).set
  rw [View.set_slice_whole, Rect.mem_set_unit]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 1 ≤ (i 1).val ∧ (i 1).val < win0_8.index t (1 : Fin 4) * 1 + 1; omega
  | ⟨2, _⟩ => show win0_8.index t (2 : Fin 4) * 128 ≤ (i 2).val ∧ (i 2).val < win0_8.index t (2 : Fin 4) * 128 + 128; omega
  | ⟨3, _⟩ => show win0_8.index t (3 : Fin 4) * 64 ≤ (i 3).val ∧ (i 3).val < win0_8.index t (3 : Fin 4) * 64 + 64; omega

/-- So window 8's array ends holding the specification's array. -/
theorem final8 (c : Dev nD) : (dats m 0 c).arrAt 8 cfg0.N = outIm (V m c main_arg0) (V m c main_arg1) (V m c main_arg2) (V m c main_arg3) (V m c main_arg5) (V m c main_v4) :=
  (dats m 0 c).arrAt_eq_of_cover 8 _ (fun t _ => flushed8_eq m c t) (cover8)

/-! ## The gate the region finds, and the run -/

/-- The array the gate window stages is the host's exp(dwm / (σ·σ)) of the arguments: the specification's gate. -/
theorem V_gate (c : Dev nD) : (V m c main_v4 : S1x1x2048x2048.Idx → EReal) = gateOf (m ((c : Thread nD τ).loc main_arg6)) (m ((c : Thread nD τ).loc main_arg7)) := by
  have e : (V m c main_v4 : S1x1x2048x2048.Idx → EReal)
      = Host.exp (F := Ideal) (φ := .f32) (Host.divf (F := Ideal) (φ := .f32) (m ((c : Thread nD τ).loc main_arg6))
          (broadcastInDim S1x1x2048x2048 ![0, 1, 2, 3] bcast_S1x1x1x1_S1x1x2048x2048_0_1_2_3
            (broadcastInDim S1x1x1x1 ![3] bcast_S1_S1x1x1x1_3 (mulf (F := Ideal) (φ := .f32) (m ((c : Thread nD τ).loc main_arg7)) (m ((c : Thread nD τ).loc main_arg7)))))) := by
    dsimp only [Gen.V, Gen.hostOps0]; after_results
  rw [e]
  exact hostGate_eq _ _ bcast_S1_S1x1x1x1_3 bcast_S1x1x1x1_S1x1x2048x2048_0_1_2_3

/-- The kernel's run at the ideal instance: each result array at the specification's array of the arguments, the arguments
    unchanged. -/
theorem run : θ_run defs (onTc (τ := τ) (main (F := Ideal))) ⟨m, fun _ => 0, ρ⟩ fun r => ∀ c : Dev nD,
      r.2.mem ((c : Thread nD τ).loc main_v5_0) = outRe (m ((c : Thread nD τ).loc main_arg0)) (m ((c : Thread nD τ).loc main_arg1)) (m ((c : Thread nD τ).loc main_arg2)) (m ((c : Thread nD τ).loc main_arg3)) (m ((c : Thread nD τ).loc main_arg4)) (gateOf (m ((c : Thread nD τ).loc main_arg6)) (m ((c : Thread nD τ).loc main_arg7)))
      ∧ r.2.mem ((c : Thread nD τ).loc main_v5_1) = outIm (m ((c : Thread nD τ).loc main_arg0)) (m ((c : Thread nD τ).loc main_arg1)) (m ((c : Thread nD τ).loc main_arg2)) (m ((c : Thread nD τ).loc main_arg3)) (m ((c : Thread nD τ).loc main_arg5)) (gateOf (m ((c : Thread nD τ).loc main_arg6)) (m ((c : Thread nD τ).loc main_arg7)))
      ∧ r.2.mem ((c : Thread nD τ).loc main_v5_2) = attnRe (m ((c : Thread nD τ).loc main_arg0)) (m ((c : Thread nD τ).loc main_arg1)) (m ((c : Thread nD τ).loc main_arg2)) (m ((c : Thread nD τ).loc main_arg3)) (gateOf (m ((c : Thread nD τ).loc main_arg6)) (m ((c : Thread nD τ).loc main_arg7)))
      ∧ r.2.mem ((c : Thread nD τ).loc main_v5_3) = attnIm (m ((c : Thread nD τ).loc main_arg0)) (m ((c : Thread nD τ).loc main_arg1)) (m ((c : Thread nD τ).loc main_arg2)) (m ((c : Thread nD τ).loc main_arg3)) (gateOf (m ((c : Thread nD τ).loc main_arg6)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    have ha0 := V_main_arg0 m c; have ha1 := V_main_arg1 m c; have ha2 := V_main_arg2 m c; have ha3 := V_main_arg3 m c
    have ha4 := V_main_arg4 m c; have ha5 := V_main_arg5 m c; have hg := V_gate m c
    refine ⟨(h c).1.trans ?_, (h c).2.1.trans ?_, (h c).2.2.1.trans ?_, (h c).2.2.2.1.trans ?_, (h c).2.2.2.2⟩
    · rw [final7, ha0, ha1, ha2, ha3, ha4, hg]
    · rw [final8, ha0, ha1, ha2, ha3, ha5, hg]
    · rw [final9, ha0, ha1, ha2, ha3, hg]
    · rw [final10, ha0, ha1, ha2, ha3, hg])
    (Cert.KernelIdeal.Value.run_blocks m ρ)

end Cert.KernelIdeal.Final

end
-- ==== Proof.LibRank4RowMax.lean ====
/-
  A host maximum over the last axis of a rank-4 array, read at an index.

  A one-operand reduce with a maximum body over axis 3 of an [n0, n1, n2, n3] array of extended reals, read at
  (b, h, q), is the fold of max, from the initial value's one element, over the n3 entries of row (b, h, q): the
  reduced index with the dropped coordinate put back is (b, h, q, k). The lemma holds for every extent.
-/
import Idealize.ShloMosaic.Lib.ValueIdx
import Idealize.ShloMosaic.PureOps.Ideal.Laws

noncomputable section

namespace Cert.Lib.Rank4RowMax

open Idealize.ShloMosaic Idealize.ShloMosaic.ValueIdx

/-- The host's reduce-maximum along the last axis of an [n0, n1, n2, n3] array, at (b, h, q): the fold of max from
    the initial value over k < n3 of the array at (b, h, q, k). -/
theorem hostRowMax_apply {n0 n1 n2 n3 : ℕ} {u : Shape} (x : FVec Ideal ⟨4, ![n0, n1, n2, n3]⟩ .f32)
    (init : FVec Ideal u .f32)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (hu : 0 < u.numel)
    (b : Fin n0) (g : Fin n1) (q : Fin n2) :
    Host.reduce FloatOps.maximumf x init h' hu (ix3 b g q)
      = (Finset.univ : Finset (Fin n3)).fold max (init (Shape.Idx.first hu)) (fun k => x (ix4 b g q k)) :=
  (Host.reduce_eq_fold_single FloatOps.maximumf x init h' h hu (ix3 b g q)).trans
    (congrArg (fun f : Fin n3 → EReal => (Finset.univ : Finset (Fin n3)).fold max (init (Shape.Idx.first hu)) f)
      (funext fun k => congrArg x (funext fun d => Fin.ext (by
        match d with
        | ⟨0, _⟩ => rfl
        | ⟨1, _⟩ => rfl
        | ⟨2, _⟩ => rfl
        | ⟨3, _⟩ => rfl))))

end Cert.Lib.Rank4RowMax

end
-- ==== Proof.RefRead.lean ====
/-
  The reference program computes the specification.

  Read one operation at a time, each of the reference's four results is the specification's array of the same name:
  its batched contractions over the feature axis are the scaled row products, the broadcast gate is read at
  (0, 0, q, k), its row maximum — a reduce from −∞ followed by one more maximum against −∞ — is the fold of max
  over the row, its row sum starts from the zero word, and its last contractions run over the key axis.
-/
import proofs.«157977_j84576495993326_2_alg».proof.Proof.Gen.ReferenceIdeal.Read
import proofs.«157977_j84576495993326_2_alg».proof.Proof.Spec
import proofs.«157977_j84576495993326_2_alg».proof.Proof.LibRank4RowMax
import proofs.«157977_j84576495993326_2_alg».proof.Proof.LibRowMax

noncomputable section

namespace Cert.CplxAttn.Ref

open Idealize.ShloMosaic Idealize.ShloMosaic.ValueIdx Cert.ReferenceIdeal Cert.ReferenceIdeal.Read Cert.CplxAttn

variable (x0 x1 x2 x3 x4 x5 : SQ.Idx → EReal) (x6 : SG.Idx → EReal) (x7 : S1.Idx → EReal)

/-! ## The gate -/

theorem idx_v15_v16 (i : SG.Idx) : idx_main_v15 (idx_main_v16 i) = ix1 (0 : Fin 1) :=
  funext fun a => Fin.ext (by match a with | ⟨0, _⟩ => rfl)

/-- The reference's gate exp(dwm / (σ·σ)), σ·σ spread over the [1, 1, 2048, 2048] array. -/
theorem gate_v18 (i : SG.Idx) : val_main_v18 (F := Ideal) x6 x7 i = gateOf x6 x7 i := by
  rw [val_main_v18_apply, val_main_v17_apply, val_main_v16_apply, val_main_v15_apply, val_main_v14_apply, idx_v15_v16]
  rfl

/-! ## The real part -/

theorem lidx_v2 (b : Fin 2) (h : Fin 8) (q k : Fin 2048) (d : Fin 64) : lidx_main_v2 (ix4 b h q k) d = ix4 b h q d :=
  funext fun a => Fin.ext (by match a with | ⟨0, _⟩ => rfl | ⟨1, _⟩ => rfl | ⟨2, _⟩ => rfl | ⟨3, _⟩ => rfl)
theorem ridx_v2 (b : Fin 2) (h : Fin 8) (q k : Fin 2048) (d : Fin 64) : ridx_main_v2 (ix4 b h q k) d = ix4 b h k d :=
  funext fun a => Fin.ext (by match a with | ⟨0, _⟩ => rfl | ⟨1, _⟩ => rfl | ⟨2, _⟩ => rfl | ⟨3, _⟩ => rfl)
theorem lidx_v5 (b : Fin 2) (h : Fin 8) (q k : Fin 2048) (d : Fin 64) : lidx_main_v5 (ix4 b h q k) d = ix4 b h q d :=
  funext fun a => Fin.ext (by match a with | ⟨0, _⟩ => rfl | ⟨1, _⟩ => rfl | ⟨2, _⟩ => rfl | ⟨3, _⟩ => rfl)
theorem ridx_v5 (b : Fin 2) (h : Fin 8) (q k : Fin 2048) (d : Fin 64) : ridx_main_v5 (ix4 b h q k) d = ix4 b h k d :=
  funext fun a => Fin.ext (by match a with | ⟨0, _⟩ => rfl | ⟨1, _⟩ => rfl | ⟨2, _⟩ => rfl | ⟨3, _⟩ => rfl)

/-- The first contraction of the real score: the scaled query row against the key row. -/
theorem dot_v2 (b : Fin 2) (h : Fin 8) (q k : Fin 2048) :
    val_main_v2 (F := Ideal) x0 x2 (ix4 b h q k) = sdot (rowOf x0 b h q) (rowOf x2 b h k) := by
  rw [val_main_v2_apply]
  unfold sdot
  refine Finset.sum_congr rfl fun d _ => ?_
  rw [val_main_v1_apply, val_main_v0_apply, val_main_cst_apply, lidx_v2, ridx_v2]
  rfl

/-- The second contraction of the real score. -/
theorem dot_v5 (b : Fin 2) (h : Fin 8) (q k : Fin 2048) :
    val_main_v5 (F := Ideal) x1 x3 (ix4 b h q k) = sdot (rowOf x1 b h q) (rowOf x3 b h k) := by
  rw [val_main_v5_apply]
  unfold sdot
  refine Finset.sum_congr rfl fun d _ => ?_
  rw [val_main_v4_apply, val_main_v3_apply, val_main_cst_0_apply, lidx_v5, ridx_v5]
  rfl

theorem idx_v19 (b : Fin 2) (h : Fin 8) (q k : Fin 2048) : idx_main_v19 (ix4 b h q k) = ix4 (0 : Fin 1) (0 : Fin 1) q k :=
  funext fun a => Fin.ext (by match a with | ⟨0, _⟩ => rfl | ⟨1, _⟩ => rfl | ⟨2, _⟩ => rfl | ⟨3, _⟩ => rfl)

/-- The gated real logits of query row (b, h, q). -/
abbrev Lre (x0 x1 x2 x3 : SQ.Idx → EReal) (x6 : SG.Idx → EReal) (x7 : S1.Idx → EReal) (b : Fin 2) (h : Fin 8) (q : Fin 2048) : Fin 2048 → EReal :=
  logitRe (rowOf x0 b h q) (rowOf x1 b h q) (fun k' => rowOf x2 b h k') (fun k' => rowOf x3 b h k')
    (fun k' => gateOf x6 x7 (ix4 (0 : Fin 1) (0 : Fin 1) q k'))

/-- The reference's |score · gate| is the specification's logit. -/
theorem logit_v21 (b : Fin 2) (h : Fin 8) (q k : Fin 2048) :
    val_main_v21 (F := Ideal) x0 x1 x2 x3 x6 x7 (ix4 b h q k) = (Lre x0 x1 x2 x3 x6 x7 b h q) k := by
  rw [val_main_v21_apply, val_main_v20_apply, val_main_v6_apply, val_main_v19_apply, dot_v2, dot_v5,
    gate_v18, idx_v19]
  rfl

/-- The reference's row maximum (a reduce from −∞, then one more maximum against −∞) is the row's maximum. -/
theorem rowmax_v24 (b : Fin 2) (h : Fin 8) (q : Fin 2048) :
    val_main_v24 (F := Ideal) x0 x1 x2 x3 x6 x7 (ix3 b h q) = rowMax (Lre x0 x1 x2 x3 x6 x7 b h q) := by
  rw [val_main_v24_apply, val_main_v23_apply, val_main_cst_4_apply]
  unfold val_main_v22
  rw [Cert.Lib.Rank4RowMax.hostRowMax_apply _ _ Gen.reducesTo_S2x8x2048x2048_S2x8x2048_d3 (by decide) Gen.h_S_ b h q]
  have e : (fun k => val_main_v21 (F := Ideal) x0 x1 x2 x3 x6 x7 (ix4 b h q k)) = (Lre x0 x1 x2 x3 x6 x7 b h q) :=
    funext fun k => logit_v21 x0 x1 x2 x3 x6 x7 b h q k
  rw [e]
  exact Cert.Lib.RowMax.max_negInf_f32 _

theorem idx_v25_v26 (b : Fin 2) (h : Fin 8) (q k : Fin 2048) : idx_main_v25 (idx_main_v26 (ix4 b h q k)) = ix3 b h q :=
  funext fun a => Fin.ext (by match a with | ⟨0, _⟩ => rfl | ⟨1, _⟩ => rfl | ⟨2, _⟩ => rfl)
theorem idx_v30_v31 (b : Fin 2) (h : Fin 8) (q k : Fin 2048) : idx_main_v30 (idx_main_v31 (ix4 b h q k)) = ix3 b h q :=
  funext fun a => Fin.ext (by match a with | ⟨0, _⟩ => rfl | ⟨1, _⟩ => rfl | ⟨2, _⟩ => rfl)
theorem idx_v29 (b : Fin 2) (h : Fin 8) (q k : Fin 2048) : idx_main_v29 (ix3 b h q) k = ix4 b h q k :=
  funext fun a => Fin.ext (by match a with | ⟨0, _⟩ => rfl | ⟨1, _⟩ => rfl | ⟨2, _⟩ => rfl | ⟨3, _⟩ => rfl)

/-- The reference's exponential of the shifted logit. -/
theorem exp_v28 (b : Fin 2) (h : Fin 8) (q k : Fin 2048) :
    val_main_v28 (F := Ideal) x0 x1 x2 x3 x6 x7 (ix4 b h q k) = Ideal.exp ((Lre x0 x1 x2 x3 x6 x7 b h q) k - rowMax (Lre x0 x1 x2 x3 x6 x7 b h q)) := by
  rw [val_main_v28_apply, val_main_v27_apply, val_main_v26_apply, val_main_v25_apply, logit_v21, idx_v25_v26,
    rowmax_v24]
  rfl

/-- The reference's real-part probabilities are the specification's. -/
theorem attn_v32 : val_main_v32 (F := Ideal) x0 x1 x2 x3 x6 x7 = attnRe x0 x1 x2 x3 (gateOf x6 x7) := by
  funext i
  obtain ⟨b, h, q, k, rfl⟩ : ∃ (b : Fin 2) (h : Fin 8) (q k : Fin 2048), i = ix4 b h q k := ⟨i 0, i 1, i 2, i 3, eq_ix4 i⟩
  rw [val_main_v32_apply, exp_v28, val_main_v31_apply, val_main_v30_apply, idx_v30_v31, val_main_v29_apply,
    val_main_cst_5_apply]
  have e : ∀ k' : Fin 2048, val_main_v28 (F := Ideal) x0 x1 x2 x3 x6 x7 (idx_main_v29 (ix3 b h q) k') = Ideal.exp ((Lre x0 x1 x2 x3 x6 x7 b h q) k' - rowMax (Lre x0 x1 x2 x3 x6 x7 b h q)) :=
    fun k' => by rw [idx_v29]; exact exp_v28 x0 x1 x2 x3 x6 x7 b h q k'
  rw [Finset.sum_congr rfl fun k' _ => e k']
  show Ideal.div _ (Ideal.ofBits .f32 0x00000000#32 + _) = _
  rw [Ideal.ofBits_zero_f32, zero_add]
  rfl

theorem lidx_v47 (b : Fin 2) (h : Fin 8) (q : Fin 2048) (d : Fin 64) (k : Fin 2048) : lidx_main_v47 (ix4 b h q d) k = ix4 b h q k :=
  funext fun a => Fin.ext (by match a with | ⟨0, _⟩ => rfl | ⟨1, _⟩ => rfl | ⟨2, _⟩ => rfl | ⟨3, _⟩ => rfl)
theorem ridx_v47 (b : Fin 2) (h : Fin 8) (q : Fin 2048) (d : Fin 64) (k : Fin 2048) : ridx_main_v47 (ix4 b h q d) k = ix4 b h k d :=
  funext fun a => Fin.ext (by match a with | ⟨0, _⟩ => rfl | ⟨1, _⟩ => rfl | ⟨2, _⟩ => rfl | ⟨3, _⟩ => rfl)

/-- The reference's real-part output is the specification's. -/
theorem out_v47 : val_main_v47 (F := Ideal) x0 x1 x2 x3 x4 x6 x7 = outRe x0 x1 x2 x3 x4 (gateOf x6 x7) := by
  funext i
  obtain ⟨b, h, q, d, rfl⟩ : ∃ (b : Fin 2) (h : Fin 8) (q : Fin 2048) (d : Fin 64), i = ix4 b h q d := ⟨i 0, i 1, i 2, i 3, eq_ix4 i⟩
  rw [val_main_v47_apply]
  unfold outRe outOf
  refine Finset.sum_congr rfl fun k _ => ?_
  rw [lidx_v47, ridx_v47, attn_v32]
  rfl

/-! ## The imaginary part -/

theorem lidx_v9 (b : Fin 2) (h : Fin 8) (q k : Fin 2048) (d : Fin 64) : lidx_main_v9 (ix4 b h q k) d = ix4 b h q d :=
  funext fun a => Fin.ext (by match a with | ⟨0, _⟩ => rfl | ⟨1, _⟩ => rfl | ⟨2, _⟩ => rfl | ⟨3, _⟩ => rfl)
theorem ridx_v9 (b : Fin 2) (h : Fin 8) (q k : Fin 2048) (d : Fin 64) : ridx_main_v9 (ix4 b h q k) d = ix4 b h k d :=
  funext fun a => Fin.ext (by match a with | ⟨0, _⟩ => rfl | ⟨1, _⟩ => rfl | ⟨2, _⟩ => rfl | ⟨3, _⟩ => rfl)
theorem lidx_v12 (b : Fin 2) (h : Fin 8) (q k : Fin 2048) (d : Fin 64) : lidx_main_v12 (ix4 b h q k) d = ix4 b h q d :=
  funext fun a => Fin.ext (by match a with | ⟨0, _⟩ => rfl | ⟨1, _⟩ => rfl | ⟨2, _⟩ => rfl | ⟨3, _⟩ => rfl)
theorem ridx_v12 (b : Fin 2) (h : Fin 8) (q k : Fin 2048) (d : Fin 64) : ridx_main_v12 (ix4 b h q k) d = ix4 b h k d :=
  funext fun a => Fin.ext (by match a with | ⟨0, _⟩ => rfl | ⟨1, _⟩ => rfl | ⟨2, _⟩ => rfl | ⟨3, _⟩ => rfl)

/-- The first contraction of the imaginary score: the scaled query row against the key row. -/
theorem dot_v9 (b : Fin 2) (h : Fin 8) (q k : Fin 2048) :
    val_main_v9 (F := Ideal) x1 x2 (ix4 b h q k) = sdot (rowOf x1 b h q) (rowOf x2 b h k) := by
  rw [val_main_v9_apply]
  unfold sdot
  refine Finset.sum_congr rfl fun d _ => ?_
  rw [val_main_v8_apply, val_main_v7_apply, val_main_cst_1_apply, lidx_v9, ridx_v9]
  rfl

/-- The second contraction of the imaginary score. -/
theorem dot_v12 (b : Fin 2) (h : Fin 8) (q k : Fin 2048) :
    val_main_v12 (F := Ideal) x0 x3 (ix4 b h q k) = sdot (rowOf x0 b h q) (rowOf x3 b h k) := by
  rw [val_main_v12_apply]
  unfold sdot
  refine Finset.sum_congr rfl fun d _ => ?_
  rw [val_main_v11_apply, val_main_v10_apply, val_main_cst_2_apply, lidx_v12, ridx_v12]
  rfl

theorem idx_v33 (b : Fin 2) (h : Fin 8) (q k : Fin 2048) : idx_main_v33 (ix4 b h q k) = ix4 (0 : Fin 1) (0 : Fin 1) q k :=
  funext fun a => Fin.ext (by match a with | ⟨0, _⟩ => rfl | ⟨1, _⟩ => rfl | ⟨2, _⟩ => rfl | ⟨3, _⟩ => rfl)

/-- The gated imaginary logits of query row (b, h, q). -/
abbrev Lim (x0 x1 x2 x3 : SQ.Idx → EReal) (x6 : SG.Idx → EReal) (x7 : S1.Idx → EReal) (b : Fin 2) (h : Fin 8) (q : Fin 2048) : Fin 2048 → EReal :=
  logitIm (rowOf x0 b h q) (rowOf x1 b h q) (fun k' => rowOf x2 b h k') (fun k' => rowOf x3 b h k')
    (fun k' => gateOf x6 x7 (ix4 (0 : Fin 1) (0 : Fin 1) q k'))

/-- The reference's |score · gate| is the specification's logit. -/
theorem logit_v35 (b : Fin 2) (h : Fin 8) (q k : Fin 2048) :
    val_main_v35 (F := Ideal) x0 x1 x2 x3 x6 x7 (ix4 b h q k) = (Lim x0 x1 x2 x3 x6 x7 b h q) k := by
  rw [val_main_v35_apply, val_main_v34_apply, val_main_v13_apply, val_main_v33_apply, dot_v9, dot_v12,
    gate_v18, idx_v33]
  rfl

/-- The reference's row maximum (a reduce from −∞, then one more maximum against −∞) is the row's maximum. -/
theorem rowmax_v38 (b : Fin 2) (h : Fin 8) (q : Fin 2048) :
    val_main_v38 (F := Ideal) x0 x1 x2 x3 x6 x7 (ix3 b h q) = rowMax (Lim x0 x1 x2 x3 x6 x7 b h q) := by
  rw [val_main_v38_apply, val_main_v37_apply, val_main_cst_7_apply]
  unfold val_main_v36
  rw [Cert.Lib.Rank4RowMax.hostRowMax_apply _ _ Gen.reducesTo_S2x8x2048x2048_S2x8x2048_d3 (by decide) Gen.h_S_ b h q]
  have e : (fun k => val_main_v35 (F := Ideal) x0 x1 x2 x3 x6 x7 (ix4 b h q k)) = (Lim x0 x1 x2 x3 x6 x7 b h q) :=
    funext fun k => logit_v35 x0 x1 x2 x3 x6 x7 b h q k
  rw [e]
  exact Cert.Lib.RowMax.max_negInf_f32 _

theorem idx_v39_v40 (b : Fin 2) (h : Fin 8) (q k : Fin 2048) : idx_main_v39 (idx_main_v40 (ix4 b h q k)) = ix3 b h q :=
  funext fun a => Fin.ext (by match a with | ⟨0, _⟩ => rfl | ⟨1, _⟩ => rfl | ⟨2, _⟩ => rfl)
theorem idx_v44_v45 (b : Fin 2) (h : Fin 8) (q k : Fin 2048) : idx_main_v44 (idx_main_v45 (ix4 b h q k)) = ix3 b h q :=
  funext fun a => Fin.ext (by match a with | ⟨0, _⟩ => rfl | ⟨1, _⟩ => rfl | ⟨2, _⟩ => rfl)
theorem idx_v43 (b : Fin 2) (h : Fin 8) (q k : Fin 2048) : idx_main_v43 (ix3 b h q) k = ix4 b h q k :=
  funext fun a => Fin.ext (by match a with | ⟨0, _⟩ => rfl | ⟨1, _⟩ => rfl | ⟨2, _⟩ => rfl | ⟨3, _⟩ => rfl)

/-- The reference's exponential of the shifted logit. -/
theorem exp_v42 (b : Fin 2) (h : Fin 8) (q k : Fin 2048) :
    val_main_v42 (F := Ideal) x0 x1 x2 x3 x6 x7 (ix4 b h q k) = Ideal.exp ((Lim x0 x1 x2 x3 x6 x7 b h q) k - rowMax (Lim x0 x1 x2 x3 x6 x7 b h q)) := by
  rw [val_main_v42_apply, val_main_v41_apply, val_main_v40_apply, val_main_v39_apply, logit_v35, idx_v39_v40,
    rowmax_v38]
  rfl

/-- The reference's imaginary-part probabilities are the specification's. -/
theorem attn_v46 : val_main_v46 (F := Ideal) x0 x1 x2 x3 x6 x7 = attnIm x0 x1 x2 x3 (gateOf x6 x7) := by
  funext i
  obtain ⟨b, h, q, k, rfl⟩ : ∃ (b : Fin 2) (h : Fin 8) (q k : Fin 2048), i = ix4 b h q k := ⟨i 0, i 1, i 2, i 3, eq_ix4 i⟩
  rw [val_main_v46_apply, exp_v42, val_main_v45_apply, val_main_v44_apply, idx_v44_v45, val_main_v43_apply,
    val_main_cst_8_apply]
  have e : ∀ k' : Fin 2048, val_main_v42 (F := Ideal) x0 x1 x2 x3 x6 x7 (idx_main_v43 (ix3 b h q) k') = Ideal.exp ((Lim x0 x1 x2 x3 x6 x7 b h q) k' - rowMax (Lim x0 x1 x2 x3 x6 x7 b h q)) :=
    fun k' => by rw [idx_v43]; exact exp_v42 x0 x1 x2 x3 x6 x7 b h q k'
  rw [Finset.sum_congr rfl fun k' _ => e k']
  show Ideal.div _ (Ideal.ofBits .f32 0x00000000#32 + _) = _
  rw [Ideal.ofBits_zero_f32, zero_add]
  rfl

theorem lidx_v48 (b : Fin 2) (h : Fin 8) (q : Fin 2048) (d : Fin 64) (k : Fin 2048) : lidx_main_v48 (ix4 b h q d) k = ix4 b h q k :=
  funext fun a => Fin.ext (by match a with | ⟨0, _⟩ => rfl | ⟨1, _⟩ => rfl | ⟨2, _⟩ => rfl | ⟨3, _⟩ => rfl)
theorem ridx_v48 (b : Fin 2) (h : Fin 8) (q : Fin 2048) (d : Fin 64) (k : Fin 2048) : ridx_main_v48 (ix4 b h q d) k = ix4 b h k d :=
  funext fun a => Fin.ext (by match a with | ⟨0, _⟩ => rfl | ⟨1, _⟩ => rfl | ⟨2, _⟩ => rfl | ⟨3, _⟩ => rfl)

/-- The reference's imaginary-part output is the specification's. -/
theorem out_v48 : val_main_v48 (F := Ideal) x0 x1 x2 x3 x5 x6 x7 = outIm x0 x1 x2 x3 x5 (gateOf x6 x7) := by
  funext i
  obtain ⟨b, h, q, d, rfl⟩ : ∃ (b : Fin 2) (h : Fin 8) (q : Fin 2048) (d : Fin 64), i = ix4 b h q d := ⟨i 0, i 1, i 2, i 3, eq_ix4 i⟩
  rw [val_main_v48_apply]
  unfold outIm outOf
  refine Finset.sum_congr rfl fun k _ => ?_
  rw [lidx_v48, ridx_v48, attn_v46]
  rfl

end Cert.CplxAttn.Ref

end
-- ==== Proof.lean ====
/-
  Complex-valued gated attention: a pipelined kernel against its jnp reference, over the extended reals.

  The kernel walks a 2 × 8 × 16 grid. At the point (b, h, s) it holds rows 128·s … 128·s + 127 of the real and imaginary
  queries of batch b and head h, all 2048 rows of their keys and values, and the whole distance gate
  g = exp(dwm / (σ·σ)), which the surrounding program computes once. It forms the real scores q_r·k_r + q_i·k_i and the
  imaginary scores q_i·k_r − q_r·k_i (the queries first scaled by the exact dyadic 1/8), multiplies each by the gate,
  takes absolute values, applies a row softmax, writes the two probability blocks, and writes their products with the real
  and the imaginary values. The reference computes the same four arrays with batched contractions over whole arrays.

  Over the extended reals a change of float format is the identity, a matrix unit's product into a zero accumulator and
  the host's contraction are the same finite sum, a lane reduction and the host's reduce are the same sum or maximum,
  and the reference's extra maximum against −∞ is the identity. So both programs compute one function of the arguments
  (Spec.lean): the reference operation by operation (RefRead.lean), the kernel row by row of each block (BodyOut.lean,
  BodyMath.lean, Blocks.lean) and block by block of each array (Final.lean). No finiteness is used: the two sides apply
  the same operations to the same entries, and only the grouping of finite sums differs. The idealization rewrote
  nothing, so the kernel's idealization claim is trivially true; the three frames are the programs' runs with the
  results dropped.
-/
import proofs.«157977_j84576495993326_2_alg».proof.Defs
import proofs.«157977_j84576495993326_2_alg».proof.Proof.Gen.Kernel
import proofs.«157977_j84576495993326_2_alg».proof.Proof.Gen.Kernel.Skeleton
import proofs.«157977_j84576495993326_2_alg».proof.Proof.Gen.Kernel.Launch
import proofs.«157977_j84576495993326_2_alg».proof.Proof.Gen.Kernel.Points
import proofs.«157977_j84576495993326_2_alg».proof.Proof.Gen.Kernel.Frame
import proofs.«157977_j84576495993326_2_alg».proof.Proof.Gen.KernelIdeal
import proofs.«157977_j84576495993326_2_alg».proof.Proof.Gen.KernelIdeal.Skeleton
import proofs.«157977_j84576495993326_2_alg».proof.Proof.Gen.KernelIdeal.Launch
import proofs.«157977_j84576495993326_2_alg».proof.Proof.Gen.KernelIdeal.Points
import proofs.«157977_j84576495993326_2_alg».proof.Proof.Gen.KernelIdeal.Frame
import proofs.«157977_j84576495993326_2_alg».proof.Proof.Gen.ReferenceIdeal
import proofs.«157977_j84576495993326_2_alg».proof.Proof.Gen.Pre_finite_inputs
import proofs.«157977_j84576495993326_2_alg».proof.Proof.Gen.KernelIdeal.Value
import proofs.«157977_j84576495993326_2_alg».proof.Proof.Gen.ReferenceIdeal.Run
import proofs.«157977_j84576495993326_2_alg».proof.Proof.Gen.ReferenceIdeal.Read
import proofs.«157977_j84576495993326_2_alg».proof.Proof.Final
import proofs.«157977_j84576495993326_2_alg».proof.Proof.RefRead
import Idealize.ShloMosaic.Adequacy
import Idealize.ShloMosaic.Init

noncomputable section

namespace Cert.Proof

open Idealize.ShloMosaic Idealize.SL.Sem Cert.CplxAttn

/-- The word-level kernel runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the results dropped. -/
theorem frame_referenceIdeal : Cert.frame_ReferenceIdeal := fun m ρ _ =>
  (θ_run Cert.ReferenceIdeal.defs _ _).mono (fun _ h c => (h c).2.2.2.2)
    (Cert.ReferenceIdeal.Value.run (F := Ideal) m ρ)

/-- The idealization rewrote no operation. -/
theorem preserves : Cert.preserves_Kernel_KernelIdeal := trivial

/-- Both idealized programs end with the specification's four arrays of arguments that agree. -/
theorem algebraic : Cert.algebraic_KernelIdeal_ReferenceIdeal := by
  intro m ρ m' ρ' _ hagree
  refine ⟨_, _, _, _, Cert.KernelIdeal.Final.run m ρ, ?_⟩
  refine (θ_run Cert.ReferenceIdeal.defs _ _).mono (fun _ h c => ?_) (Cert.ReferenceIdeal.Value.run (F := Ideal) m' ρ')
  obtain ⟨r0, r1, r2, r3, rest⟩ := h c
  obtain ⟨g0, g1, g2, g3, g4, g5, g6, g7⟩ := hagree c
  refine ⟨r0.trans ?_, r1.trans ?_, r2.trans ?_, r3.trans ?_, rest⟩
  · exact (Cert.ReferenceIdeal.Read.val_main_v47_eq m' c).trans ((Cert.CplxAttn.Ref.out_v47 _ _ _ _ _ _ _).trans
      (by rw [g0, g1, g2, g3, g4, g6, g7]))
  · exact (Cert.ReferenceIdeal.Read.val_main_v48_eq m' c).trans ((Cert.CplxAttn.Ref.out_v48 _ _ _ _ _ _ _).trans
      (by rw [g0, g1, g2, g3, g5, g6, g7]))
  · exact (Cert.ReferenceIdeal.Read.val_main_v32_eq m' c).trans ((Cert.CplxAttn.Ref.attn_v32 _ _ _ _ _ _).trans
      (by rw [g0, g1, g2, g3, g6, g7]))
  · exact (Cert.ReferenceIdeal.Read.val_main_v46_eq m' c).trans ((Cert.CplxAttn.Ref.attn_v46 _ _ _ _ _ _).trans
      (by rw [g0, g1, g2, g3, g6, g7]))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
